-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x64x64x64 : Shape := ⟨5, ![8, 32, 64, 64, 64]⟩
abbrev S32 : Shape := ⟨1, ![32]⟩
abbrev S_ : Shape := ⟨0, ![]⟩

class Facts : Prop where
  bcast_S_S8x32x64x64x64 : S_.BroadcastsInDim S8x32x64x64x64 (![] : Fin 0 → Fin S8x32x64x64x64.rank)
  reducesTo_S8x32x64x64x64_S_d0_1_2_3_4 : S8x32x64x64x64.ReducesTo [0, 1, 2, 3, 4] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S8x32x64x64x64 .f32) (main_arg1 : FVec F S32 .f32) (main_arg2 : FVec F S32 .f32) : IVec S_ 1 :=
  let main_v0 : FVec F S8x32x64x64x64 .f32 := Host.absf main_arg0
  let main_cst : FVec F S_ .f32 := constant S_ .f32 0x7F800000#32
  let main_v1 : FVec F S8x32x64x64x64 .f32 := broadcastInDim S8x32x64x64x64 ![] bcast_S_S8x32x64x64x64 main_cst
  let main_v2 : IVec S8x32x64x64x64 1 := cmpf .olt main_v0 main_v1
  let main_c : IVec S_ 1 := constantI S_ 1 1#1
  let main_v3 : IVec S_ 1 := (fun x v => Host.reduce IntOp.andi x v reducesTo_S8x32x64x64x64_S_d0_1_2_3_4 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S8x32x64x64x64 : Shape := ⟨5, ![8, 32, 64, 64, 64]⟩
abbrev S32 : Shape := ⟨1, ![32]⟩
abbrev S8x32x262144 : Shape := ⟨3, ![8, 32, 262144]⟩
abbrev S2x8x3 : Shape := ⟨3, ![2, 8, 3]⟩
abbrev S8x32x4096 : Shape := ⟨3, ![8, 32, 4096]⟩
abbrev S1x8x3 : Shape := ⟨3, ![1, 8, 3]⟩
abbrev S8x1x4096 : Shape := ⟨3, ![8, 1, 4096]⟩
abbrev S8x1 : Shape := ⟨2, ![8, 1]⟩
abbrev S8x32 : Shape := ⟨2, ![8, 32]⟩
abbrev S8 : Shape := ⟨1, ![8]⟩
abbrev S8x3 : Shape := ⟨2, ![8, 3]⟩
abbrev S_ : Shape := ⟨0, ![]⟩
abbrev S8x1x1 : Shape := ⟨3, ![8, 1, 1]⟩
abbrev S4x32x8192 : Shape := ⟨3, ![4, 32, 8192]⟩
abbrev S4x1x1 : Shape := ⟨3, ![4, 1, 1]⟩
abbrev S1x32x1 : Shape := ⟨3, ![1, 32, 1]⟩

abbrev nBuf : Space → Nat
  | .hbm => 52
  | .vmem => 14
  | .smem => 0
  | _ => 0

abbrev bufTy : (tb : Table) → Fin (tcTables nBuf tb) → BufTy
  | .hbm, ⟨0, _⟩ => ⟨S8x32x64x64x64, .f32⟩
  | .hbm, ⟨1, _⟩ => ⟨S32, .f32⟩
  | .hbm, ⟨2, _⟩ => ⟨S32, .f32⟩
  | .hbm, ⟨3, _⟩ => ⟨S8x32x262144, .f32⟩
  | .hbm, ⟨4, _⟩ => ⟨S2x8x3, .f32⟩
  | .hbm, ⟨5, _⟩ => ⟨S_, .f32⟩
  | .hbm, ⟨6, _⟩ => ⟨S8x3, .f32⟩
  | .hbm, ⟨7, _⟩ => ⟨S8x1, .f32⟩
  | .hbm, ⟨8, _⟩ => ⟨S8, .f32⟩
  | .hbm, ⟨9, _⟩ => ⟨S8x1, .f32⟩
  | .hbm, ⟨10, _⟩ => ⟨S8, .f32⟩
  | .hbm, ⟨11, _⟩ => ⟨S8x1, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .i1⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S8x1x1, .f32⟩
  | .hbm, ⟨49, _⟩ => ⟨S8x1x1, .f32⟩
  | .hbm, ⟨50, _⟩ => ⟨S8x32x262144, .f32⟩
  | .hbm, ⟨51, _⟩ => ⟨S8x32x64x64x64, .f32⟩
  | .local _ .vmem, ⟨0, _⟩ => ⟨S8x32x4096, .f32⟩
  | .local _ .vmem, ⟨1, _⟩ => ⟨S8x32x4096, .f32⟩
  | .local _ .vmem, ⟨2, _⟩ => ⟨S1x8x3, .f32⟩
  | .local _ .vmem, ⟨3, _⟩ => ⟨S1x8x3, .f32⟩
  | .local _ .vmem, ⟨4, _⟩ => ⟨S4x32x8192, .f32⟩
  | .local _ .vmem, ⟨5, _⟩ => ⟨S4x32x8192, .f32⟩
  | .local _ .vmem, ⟨6, _⟩ => ⟨S4x1x1, .f32⟩
  | .local _ .vmem, ⟨7, _⟩ => ⟨S4x1x1, .f32⟩
  | .local _ .vmem, ⟨8, _⟩ => ⟨S4x1x1, .f32⟩
  | .local _ .vmem, ⟨9, _⟩ => ⟨S4x1x1, .f32⟩
  | .local _ .vmem, ⟨10, _⟩ => ⟨S32, .f32⟩
  | .local _ .vmem, ⟨11, _⟩ => ⟨S32, .f32⟩
  | .local _ .vmem, ⟨12, _⟩ => ⟨S4x32x8192, .f32⟩
  | .local _ .vmem, ⟨13, _⟩ => ⟨S4x32x8192, .f32⟩
  | _, _ => ⟨S8x32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_call1_v0 : Ref sig .tc := ⟨.hbm, 39, rfl⟩
abbrev main_call1_v1 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S4x32x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S4x32x8192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S8x32x64x64x64_S8x32x262144 : S8x32x64x64x64.ShapeCasts S8x32x262144
  inb_S1x8x3_S1x8x3_0_0_0 : ∀ a, (![0, 0, 0] : Fin 3 → Nat) a + S1x8x3.size a ≤ S1x8x3.size a
  h_S1x8x3 : 0 < S1x8x3.numel
  inb_S8x32x4096_S8x32x4096_0_0_0 : ∀ a, (![0, 0, 0] : Fin 3 → Nat) a + S8x32x4096.size a ≤ S8x32x4096.size a
  h_S8x32x4096 : 0 < S8x32x4096.numel
  shapeCasts_S8x32x4096_S8x32x4096 : S8x32x4096.ShapeCasts S8x32x4096
  slices_S8x32x4096_o0_0_0_S8x1x4096 : S8x32x4096.Slices ![0, 0, 0] S8x1x4096
  natLt_1_32 : 1 < 32
  reduces_S8x1x4096_S8x1 : S8x1x4096.Reduces [2] S8x1
  broadcasts_S8x1x4096_S8x32x4096 : S8x1x4096.Broadcasts S8x32x4096
  reduces_S8x32x4096_S8x32 : S8x32x4096.Reduces [2] S8x32
  reduces_S8x32_S8 : S8x32.Reduces [1] S8
  shapeCasts_S8_S8x1 : S8.ShapeCasts S8x1
  concatenates_S8x1_S8x1_S8x1_S8x3_d1 : Shape.Concatenates [S8x1, S8x1, S8x1] S8x3 1
  shapeCasts_S1x8x3_S1x8x3 : S1x8x3.ShapeCasts S1x8x3
  shapeCasts_S8x3_S1x8x3 : S8x3.ShapeCasts S1x8x3
  reducesTo_S2x8x3_S8x3_d0 : S2x8x3.ReducesTo [0] S8x3
  h_S_ : 0 < S_.numel
  slices_S8x3_S8x1_0_0 : S8x3.Slices ![0, 0] S8x1
  shapeCasts_S8x1_S8 : S8x1.ShapeCasts S8
  slices_S8x3_S8x1_0_1 : S8x3.Slices ![0, 1] S8x1
  slices_S8x3_S8x1_0_2 : S8x3.Slices ![0, 2] S8x1
  bcast_S_S8 : S_.BroadcastsInDim S8 (![] : Fin 0 → Fin S8.rank)
  shapeCasts_S8_S8x1x1 : S8.ShapeCasts S8x1x1
  inb_S4x32x8192_S4x32x8192_0_0_0 : ∀ a, (![0, 0, 0] : Fin 3 → Nat) a + S4x32x8192.size a ≤ S4x32x8192.size a
  h_S4x32x8192 : 0 < S4x32x8192.numel
  shapeCasts_S4x32x8192_S4x32x8192 : S4x32x8192.ShapeCasts S4x32x8192
  inb_S4x1x1_S4x1x1_0_0_0 : ∀ a, (![0, 0, 0] : Fin 3 → Nat) a + S4x1x1.size a ≤ S4x1x1.size a
  h_S4x1x1 : 0 < S4x1x1.numel
  shapeCasts_S4x1x1_S4x1x1 : S4x1x1.ShapeCasts S4x1x1
  inb_S32_S32_0 : ∀ a, (![0] : Fin 1 → Nat) a + S32.size a ≤ S32.size a
  h_S32 : 0 < S32.numel
  shapeCasts_S32_S1x32x1 : S32.ShapeCasts S1x32x1
  broadcasts_S4x1x1_S4x32x8192 : S4x1x1.Broadcasts S4x32x8192
  broadcasts_S1x32x1_S4x32x8192 : S1x32x1.Broadcasts S4x32x8192
  shapeCasts_S8x32x262144_S8x32x64x64x64 : S8x32x262144.ShapeCasts S8x32x64x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x4096.size a ≤ S8x32x262144.size a
  hwx0_0 : ∀ i : grid0.Coords, EltTy.bits .f32 = 32 ∨ (Rect.block (s := S8x32x262144) S8x32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x3.size a ≤ S2x8x3.size a
  hwx0_1 : ∀ i : grid0.Coords, EltTy.bits .f32 = 32 ∨ (Rect.block (s := S2x8x3) S1x8x3.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x32x8192.size a ≤ S8x32x262144.size a
  hwx1_0 : ∀ i : grid1.Coords, EltTy.bits .f32 = 32 ∨ (Rect.block (s := S8x32x262144) S4x32x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x1x1.size a ≤ S8x1x1.size a
  hwx1_1 : ∀ i : grid1.Coords, EltTy.bits .f32 = 32 ∨ (Rect.block (s := S8x1x1) S4x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x1x1.size a ≤ S8x1x1.size a
  hwx1_2 : ∀ i : grid1.Coords, EltTy.bits .f32 = 32 ∨ (Rect.block (s := S8x1x1) S4x1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x32x8192.size a ≤ S8x32x262144.size a
  hwx1_5 : ∀ i : grid1.Coords, EltTy.bits .f32 = 32 ∨ (Rect.block (s := S8x32x262144) S4x32x8192.size (cc1_transform_5 i) (hinb1_5 i)).WholeWords (EltTy.packing .f32)

variable [Facts₀]

abbrev win0_0 : Pipeline.Window sig grid0 :=
  Pipeline.Window.ofSpec (Memref.whole main_v0) S8x32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x3.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S4x32x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S4x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S4x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S4x32x8192.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x32x64x64x64 : Shape := ⟨5, ![8, 32, 64, 64, 64]⟩
abbrev S32 : Shape := ⟨1, ![32]⟩
abbrev S8x1x64x64x64 : Shape := ⟨5, ![8, 1, 64, 64, 64]⟩
abbrev S_ : Shape := ⟨0, ![]⟩
abbrev S8 : Shape := ⟨1, ![8]⟩
abbrev S8x1x1x1x1 : Shape := ⟨5, ![8, 1, 1, 1, 1]⟩
abbrev S1x32x1x1x1 : Shape := ⟨5, ![1, 32, 1, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S8x32x64x64x64, .f32⟩
  | .hbm, ⟨1, _⟩ => ⟨S32, .f32⟩
  | .hbm, ⟨2, _⟩ => ⟨S32, .f32⟩
  | .hbm, ⟨3, _⟩ => ⟨S8x1x64x64x64, .f32⟩
  | .hbm, ⟨4, _⟩ => ⟨S_, .f32⟩
  | .hbm, ⟨5, _⟩ => ⟨S8x1x64x64x64, .f32⟩
  | .hbm, ⟨6, _⟩ => ⟨S8x1x64x64x64, .i1⟩
  | .hbm, ⟨7, _⟩ => ⟨S8x1x64x64x64, .f32⟩
  | .hbm, ⟨8, _⟩ => ⟨S_, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8x32x64x64x64, .f32⟩
  | .hbm, ⟨14, _⟩ => ⟨S8x32x64x64x64, .f32⟩
  | .hbm, ⟨15, _⟩ => ⟨S_, .f32⟩
  | .hbm, ⟨16, _⟩ => ⟨S8, .f32⟩
  | .hbm, ⟨17, _⟩ => ⟨S8x32x64x64x64, .f32⟩
  | .hbm, ⟨18, _⟩ => ⟨S8x32x64x64x64, .f32⟩
  | .hbm, ⟨19, _⟩ => ⟨S8x32x64x64x64, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .i1⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S8x1x1x1x1, .f32⟩
  | .hbm, ⟨52, _⟩ => ⟨S8x32x64x64x64, .f32⟩
  | .hbm, ⟨53, _⟩ => ⟨S8x32x64x64x64, .f32⟩
  | .hbm, ⟨54, _⟩ => ⟨S8x1x1x1x1, .f32⟩
  | .hbm, ⟨55, _⟩ => ⟨S_, .f32⟩
  | .hbm, ⟨56, _⟩ => ⟨S8x1x1x1x1, .f32⟩
  | .hbm, ⟨57, _⟩ => ⟨S8x1x1x1x1, .f32⟩
  | .hbm, ⟨58, _⟩ => ⟨S8x32x64x64x64, .f32⟩
  | .hbm, ⟨59, _⟩ => ⟨S8x32x64x64x64, .f32⟩
  | .hbm, ⟨60, _⟩ => ⟨S1x32x1x1x1, .f32⟩
  | .hbm, ⟨61, _⟩ => ⟨S8x32x64x64x64, .f32⟩
  | .hbm, ⟨62, _⟩ => ⟨S8x32x64x64x64, .f32⟩
  | .hbm, ⟨63, _⟩ => ⟨S1x32x1x1x1, .f32⟩
  | .hbm, ⟨64, _⟩ => ⟨S8x32x64x64x64, .f32⟩
  | .hbm, ⟨65, _⟩ => ⟨S8x32x64x64x64, .f32⟩
  | _, _ => ⟨S8x32x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_call1_v0 : Ref sig .tc := ⟨.hbm, 48, rfl⟩
abbrev main_call1_v1 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  slices_S8x32x64x64x64_S8x1x64x64x64_0_0_0_0_0 : S8x32x64x64x64.Slices ![0, 0, 0, 0, 0] S8x1x64x64x64
  bcast_S_S8x1x64x64x64 : S_.BroadcastsInDim S8x1x64x64x64 (![] : Fin 0 → Fin S8x1x64x64x64.rank)
  reducesTo_S8x1x64x64x64_S8_d1_2_3_4 : S8x1x64x64x64.ReducesTo [1, 2, 3, 4] S8
  h_S_ : 0 < S_.numel
  bcast_S_S8 : S_.BroadcastsInDim S8 (![] : Fin 0 → Fin S8.rank)
  bcast_S8x1x64x64x64_S8x32x64x64x64_0_1_2_3_4 : S8x1x64x64x64.BroadcastsInDim S8x32x64x64x64 (![0, 1, 2, 3, 4] : Fin 5 → Fin S8x32x64x64x64.rank)
  reducesTo_S8x32x64x64x64_S8_d1_2_3_4 : S8x32x64x64x64.ReducesTo [1, 2, 3, 4] S8
  shapeCasts_S8_S8x1x1x1x1 : S8.ShapeCasts S8x1x1x1x1
  bcast_S8x1x1x1x1_S8x32x64x64x64_0_1_2_3_4 : S8x1x1x1x1.BroadcastsInDim S8x32x64x64x64 (![0, 1, 2, 3, 4] : Fin 5 → Fin S8x32x64x64x64.rank)
  bcast_S_S8x1x1x1x1 : S_.BroadcastsInDim S8x1x1x1x1 (![] : Fin 0 → Fin S8x1x1x1x1.rank)
  shapeCasts_S32_S1x32x1x1x1 : S32.ShapeCasts S1x32x1x1x1
  bcast_S1x32x1x1x1_S8x32x64x64x64_0_1_2_3_4 : S1x32x1x1x1.BroadcastsInDim S8x32x64x64x64 (![0, 1, 2, 3, 4] : Fin 5 → Fin S8x32x64x64x64.rank)

variable [Facts₀]

class Facts : Prop extends Facts₀ where

variable [Facts]
-- ==== Proof.K0Pieces.lean ====
import proofs.«127413_j61598420959415_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz3 : (![0, 0, 0] : Fin 3 → Nat) = fun _ => 0 := funext fun a => by fin_cases a <;> rfl

/-- A point that continues a core's run: the statistics block holding `xo` ends at the body's one covering store,
    `xo` plus the tile's three partial statistics. -/
theorem out_B (c : Dev nD) (i : grid0.Coords) (a1 : Memref sig .tc .vmem S8x32x4096 .f32) (h1 : a1.IsWhole)
    (a2 : Memref sig .tc .vmem S1x8x3 .f32) (h2 : a2.IsWhole) (hc : ¬cond0_0 i) (x : Vec F S8x32x4096 .f32) (xo : Vec F S1x8x3 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  rw [View.canon_unit_zero hz3]
  simp only [View.readAt_eq_ld, h1.read_unread, h2.read_unread, View.ld_unit_zero (S := S8x32x4096) hz3,
    View.ld_unit_zero (S := S1x8x3) hz3]

/-- A core's first point: the block is first set to zero, read back, and ends at zero plus the tile's partial statistics. -/
theorem out_A (c : Dev nD) (i : grid0.Coords) (a1 : Memref sig .tc .vmem S8x32x4096 .f32) (h1 : a1.IsWhole)
    (a2 : Memref sig .tc .vmem S1x8x3 .f32) (h2 : a2.IsWhole) (hc : cond0_0 i) (x : Vec F S8x32x4096 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x8x3) hz3, View.readCov_unit_zero (S := S1x8x3) _ hz3]
  simp only [View.readAt_eq_ld, h1.read_unread, View.ld_unit_zero (S := S8x32x4096) hz3, View.ld_unit_zero (S := S1x8x3) hz3]

end Cert.KernelIdeal.KValue

end
-- ==== Proof.K0Acc.lean ====
import proofs.«127413_j61598420959415_2_alg».proof.Proof.K0Pieces
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

/-- The three partial statistics of one tile `v3` of 4096 voxels, per sample: column 0 the number of kept voxels
    times 32, column 1 the masked sum over channels and voxels, column 2 the masked sum of squares. -/
def part (v3 : Vec F S8x32x4096 .f32) : FVec F S8x3 .f32 :=
  have v4 : FVec F S8x32x4096 .f32 := shapeCast S8x32x4096 v3 shapeCasts_S8x32x4096_S8x32x4096
  have v5 : FVec F S8x1x4096 .f32 := extractStridedSlice S8x1x4096 ![0, 0, 0] v4 slices_S8x32x4096_o0_0_0_S8x1x4096
  have cst : F .f32 := Scalar.ofBits .f32 0x00000000#32
  have v6 : FVec F S8x1x4096 .f32 := broadcast S8x1x4096 cst
  have v7 : IVec S8x1x4096 1 := cmpf .one v5 v6
  have v8 : IVec S8x1x4096 32 := extui 32 v7 natLt_1_32
  have v9 : FVec F S8x1x4096 .f32 := sitofp .f32 v8
  have v10 : FVec F S8x1 .f32 := multiReduction .add [2] S8x1 v9 0x00000000#32 reduces_S8x1x4096_S8x1 (.inl rfl) rfl
  have cst_4 : F .f32 := Scalar.ofBits .f32 0x42000000#32
  have v11 : FVec F S8x1 .f32 := broadcast S8x1 cst_4
  have v12 : FVec F S8x1 .f32 := mulf v10 v11
  have v13 : FVec F S8x32x4096 .f32 := broadcastTo S8x32x4096 v9 broadcasts_S8x1x4096_S8x32x4096
  have v14 : FVec F S8x32x4096 .f32 := mulf v4 v13
  have v15 : FVec F S8x32 .f32 := multiReduction .add [2] S8x32 v14 0x00000000#32 reduces_S8x32x4096_S8x32 (.inl rfl) rfl
  have v16 : FVec F S8 .f32 := multiReduction .add [1] S8 v15 0x00000000#32 reduces_S8x32_S8 (.inl rfl) rfl
  have v17 : FVec F S8x1 .f32 := shapeCast S8x1 v16 shapeCasts_S8_S8x1
  have v18 : FVec F S8x32x4096 .f32 := mulf v4 v14
  have v19 : FVec F S8x32 .f32 := multiReduction .add [2] S8x32 v18 0x00000000#32 reduces_S8x32x4096_S8x32 (.inl rfl) rfl
  have v20 : FVec F S8 .f32 := multiReduction .add [1] S8 v19 0x00000000#32 reduces_S8x32_S8 (.inl rfl) rfl
  have v21 : FVec F S8x1 .f32 := shapeCast S8x1 v20 shapeCasts_S8_S8x1
  concatenate S8x3 1 [⟨S8x1, v12⟩, ⟨S8x1, v17⟩, ⟨S8x1, v21⟩] concatenates_S8x1_S8x1_S8x1_S8x3_d1

/-- The body's store: what the block held, plus the tile's partial statistics laid out as a [1,8,3] block. -/
theorem pay2_eq (v3 : Vec F S8x32x4096 .f32) (v23 : Vec F S1x8x3 .f32) :
    k0_pay2 v3 v23 = addf v23 (shapeCast S1x8x3 (part v3) shapeCasts_S8x3_S1x8x3) := by
  unfold k0_pay2 part
  rw [shapeCast_self, shapeCast_self]

section Acc
variable (V : (c : Dev nD) → (b : Ref sig .tc) → Buf (Elt F) ((c : Thread nD τ).loc b))

/-- What the statistics block holds after point `t`: the fold, over the run of points of `t`'s core up to `t`, of
    "add this tile's partial statistics", started from the zero block at the run's first point. -/
theorem outsAt_fold (c : Dev nD) (t : ℕ) (ht : t < cfg0.N) (h' : 32 * (t / 32) + t % 32 < cfg0.N) :
    outsAt0 V c t ht
      = Pipeline.accAt (fun n h => k0_pay2 (iblk0 V c 0 ⟨n, h⟩) (k0_pay1 (F := F)))
          (fun n h acc => k0_pay2 (iblk0 V c 0 ⟨n, h⟩) acc) (32 * (t / 32)) (t % 32) h' :=
  Pipeline.eq_accAt_of_mod (outsAt0 V c) 32 _ _
    (fun n h h0 => (outsAt0_A V c ⟨n, h⟩ h0).trans (out_A ..))
    (fun n h hne => (outsAt0_B V c ⟨n + 1, h⟩ hne).trans (out_B ..))
    (by decide) t ht h'

end Acc

section AtIdeal
variable (V : (c : Dev nD) → (b : Ref sig .tc) → Buf (Elt Ideal) ((c : Thread nD τ).loc b))

/-- Tile `n`'s partial statistics as a [1,8,3] block (zero past the grid: never read). -/
def tileM (c : Dev nD) (n : ℕ) : S1x8x3.Idx → EReal := fun i =>
  if h : n < cfg0.N then shapeCast S1x8x3 (part (F := Ideal) (iblk0 V c 0 ⟨n, h⟩)) shapeCasts_S8x3_S1x8x3 i else 0

/-- On the extended reals the fold is a sum: after point `t` the block holds, at each entry, zero plus the partial
    statistics of the tiles of `t`'s core from the run's first up to `t`. -/
theorem outsAt_sum (c : Dev nD) (t : ℕ) (ht : t < cfg0.N) (i : S1x8x3.Idx) :
    outsAt0 V c t ht i
      = k0_pay1 (F := Ideal) i + ∑ s ∈ Finset.range (t % 32 + 1), tileM V c (32 * (t / 32) + s) i := by
  have h' : 32 * (t / 32) + t % 32 < cfg0.N := by rw [Nat.div_add_mod]; exact ht
  rw [outsAt_fold V c t ht h']
  refine Pipeline.accAt_add_apply _ _ (k0_pay1 (F := Ideal)) (tileM V c) (32 * (t / 32)) 31 ?_ ?_ (t % 32)
    (by have := Nat.mod_lt t (by decide : 0 < 32); omega) h' i
  · intro h i
    rw [pay2_eq]
    unfold tileM
    rw [dif_pos h]
    rfl
  · intro n h acc i _ _
    rw [pay2_eq]
    unfold tileM
    rw [dif_pos h]
    rfl

end AtIdeal

end Cert.KernelIdeal.KValue

end
-- ==== Proof.LibSplitConcat.lean ====
/-
  Two facts used to read a dense layer that is fed a concatenation of feature rows.

  A sum over an index range that is laid out as two or three consecutive blocks is the sum of the
  blocks' sums.  An array obtained by joining two or three arrays along their second axis, read at a
  row and a column, is the piece whose block of columns holds the column, read at the same row and at
  the column counted from the start of that block.
-/
import Idealize.ShloMosaic.Lib.Pipeline.Value
import Idealize.ShloMosaic.Lib.ValueIdx

open scoped BigOperators

namespace Cert.ReferenceIdeal.Stages

open Idealize.ShloMosaic Idealize.ShloMosaic.ValueIdx

/-! ## A sum over consecutive blocks -/

/-- A sum over `A + B` consecutive positions is the sum over the first `A` plus the sum over the last `B`. -/
theorem sum_split2 {M : Type} [AddCommMonoid M] {A B N : Nat} (h : A + B = N) (f : Fin N → M) :
    ∑ k : Fin N, f k
      = (∑ k : Fin A, f ⟨k.val, by omega⟩) + ∑ k : Fin B, f ⟨A + k.val, by omega⟩ := by
  subst h
  rw [Fin.sum_univ_add]
  rfl

/-- A sum over `A + B + C` consecutive positions is the sum of the three blocks' sums. -/
theorem sum_split3 {M : Type} [AddCommMonoid M] {A B C N : Nat} (h : A + B + C = N) (f : Fin N → M) :
    ∑ k : Fin N, f k
      = (∑ k : Fin A, f ⟨k.val, by omega⟩) + (∑ k : Fin B, f ⟨A + k.val, by omega⟩)
          + ∑ k : Fin C, f ⟨A + B + k.val, by omega⟩ := by
  subst h
  rw [Fin.sum_univ_add, Fin.sum_univ_add]
  rfl

/-! ## Arrays joined along the second axis, read at a row and a column -/

section Cat
variable {α : Type}

/-- Two arrays joined along the second axis: a column in the first block reads the first array. -/
theorem cat2_left {E A B N : Nat} (x₁ : (⟨2, ![E, A]⟩ : Shape).Idx → α) (x₂ : (⟨2, ![E, B]⟩ : Shape).Idx → α)
    (h : Shape.Concatenates [⟨2, ![E, A]⟩, ⟨2, ![E, B]⟩] ⟨2, ![E, N]⟩ 1) (e : Fin E) (k : Fin A) (hk : k.val < N) :
    concatenate ⟨2, ![E, N]⟩ 1 [⟨⟨2, ![E, A]⟩, x₁⟩, ⟨⟨2, ![E, B]⟩, x₂⟩] h (ix2 e ⟨k.val, hk⟩) = x₁ (ix2 e k) :=
  concatenate_pair_apply_left 1 x₁ x₂ h _ rfl _ (fun b => by
    match b with
    | ⟨0, _⟩ => rfl
    | ⟨1, _⟩ => rfl)

/-- Two arrays joined along the second axis: a column in the second block reads the second array. -/
theorem cat2_right {E A B N : Nat} (x₁ : (⟨2, ![E, A]⟩ : Shape).Idx → α) (x₂ : (⟨2, ![E, B]⟩ : Shape).Idx → α)
    (h : Shape.Concatenates [⟨2, ![E, A]⟩, ⟨2, ![E, B]⟩] ⟨2, ![E, N]⟩ 1) (e : Fin E) (k : Fin B) (hk : A + k.val < N) :
    concatenate ⟨2, ![E, N]⟩ 1 [⟨⟨2, ![E, A]⟩, x₁⟩, ⟨⟨2, ![E, B]⟩, x₂⟩] h (ix2 e ⟨A + k.val, hk⟩) = x₂ (ix2 e k) :=
  concatenate_pair_apply_right 1 x₁ x₂ h _ rfl rfl _
    (fun b hb => by
      match b with
      | ⟨0, _⟩ => rfl
      | ⟨1, _⟩ => exact absurd rfl hb)
    (Nat.add_comm _ _)

/-- Three arrays joined along the second axis: a column in the first block reads the first array. -/
theorem cat3_first {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin A)
    (hk : k.val < N) :
    concatenate ⟨2, ![E, N]⟩ 1 [⟨⟨2, ![E, A]⟩, x₁⟩, ⟨⟨2, ![E, B]⟩, x₂⟩, ⟨⟨2, ![E, C]⟩, x₃⟩] h (ix2 e ⟨k.val, hk⟩)
      = x₁ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 0 (show (0 : Nat) < 3 by omega) ⟨2, ![E, A]⟩ x₁ rfl rfl 0 rfl (ix2 e k)
    (fun b hb => by
      match b with
      | ⟨0, _⟩ => rfl
      | ⟨1, _⟩ => exact absurd rfl hb)
    (Nat.zero_add _)

/-- Three arrays joined along the second axis: a column in the second block reads the second array. -/
theorem cat3_second {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin B)
    (hk : A + k.val < N) :
    concatenate ⟨2, ![E, N]⟩ 1 [⟨⟨2, ![E, A]⟩, x₁⟩, ⟨⟨2, ![E, B]⟩, x₂⟩, ⟨⟨2, ![E, C]⟩, x₃⟩] h (ix2 e ⟨A + k.val, hk⟩)
      = x₂ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 1 (show (1 : Nat) < 3 by omega) ⟨2, ![E, B]⟩ x₂ rfl rfl A (Nat.add_zero A) (ix2 e k)
    (fun b hb => by
      match b with
      | ⟨0, _⟩ => rfl
      | ⟨1, _⟩ => exact absurd rfl hb)
    rfl

/-- Three arrays joined along the second axis: a column in the third block reads the third array. -/
theorem cat3_third {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin C)
    (hk : A + B + k.val < N) :
    concatenate ⟨2, ![E, N]⟩ 1 [⟨⟨2, ![E, A]⟩, x₁⟩, ⟨⟨2, ![E, B]⟩, x₂⟩, ⟨⟨2, ![E, C]⟩, x₃⟩] h
        (ix2 e ⟨A + B + k.val, hk⟩)
      = x₃ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 2 (show (2 : Nat) < 3 by omega) ⟨2, ![E, C]⟩ x₃ rfl rfl (A + B) (show A + (B + 0) = A + B from rfl) (ix2 e k)
    (fun b hb => by
      match b with
      | ⟨0, _⟩ => rfl
      | ⟨1, _⟩ => exact absurd rfl hb)
    rfl

end Cat

end Cert.ReferenceIdeal.Stages
-- ==== Proof.LibKeepdims.lean ====
/-
  A row reduction kept as a column, read at an index by coordinates.

  `jnp.sum(x, axis=1, keepdims=True)` of an `[a, b]` array is three steps on the vector unit: a lane sum into `[a]`, a
  reshape of that vector to the column `[a, 1]`, and (where the column meets an `[a, b]` operand) its broadcast along
  the second axis. Read at `(p, c)` the three steps together are `∑ k, x (p, k)`, whatever `c`:
  `shapeCast_a_a1_apply` (the column at `(i, u)` is the vector at `i`), `broadcastTo_a1_ab_apply` (the broadcast at
  `(p, c)` is the column at `(p, 0)`) and `rowSum_f32` (an f32 lane sum over the second axis of a matrix, from the zero
  word, is the sum over `k` of the row's entries on the extended reals).
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- An `[a]` vector reshaped to the column `[a, 1]` reads, at `(i, u)`, the vector at `i`: both sit at row-major
    position `i`, the unit coordinate contributing nothing. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the second axis of an `[a, b]` matrix, started from the zero word (the sum's neutral element),
    is at row `r` the sum of that row's entries on the extended reals: the reduced index with the coordinate `k` put back
    on axis 1 is `(r, k)`. -/
theorem rowSum_f32 {a b : ℕ} (v : FVec Ideal ⟨2, ![a, b]⟩ .f32) (h : (⟨2, ![a, b]⟩ : Shape).Reduces [1] ⟨1, ![a]⟩) (r : Fin a) :
    multiReduction .add [1] ⟨1, ![a]⟩ v 0x00000000#32 h (.inl rfl) rfl (ix1 r) = ∑ k : Fin b, v (ix2 r k) := by
  refine (Ideal.multiReduction_add_single v 0x00000000#32 h (.inl rfl) rfl (ix1 r)).trans ?_
  refine Finset.sum_congr rfl fun k _ => congrArg v (funext fun c => Fin.ext ?_)
  match c with
  | ⟨0, _⟩ => rfl
  | ⟨1, _⟩ => rfl

end Cert.Lib.Keepdims

end
-- ==== Proof.LibLaneSum3.lean ====
/-
  A lane sum over the last axis of a rank-3 array, read at an index by coordinates.

  `jnp.sum(v, axis=-1)` of an `[a, b, n]` array is one `vector.multi_reduction <add>` over axis 2 into `[a, b]`, started
  from the zero word.  On the extended reals, read at `(p, q)`, it is `∑ l, v (p, q, l)`: the reduced index with the lane
  coordinate put back on axis 2 is `(p, q, l)`.  (The rank-2 case, a row sum, is the same statement one axis lower.)
-/
import Idealize.ShloMosaic.Lib.Pipeline.Value
import Idealize.ShloMosaic.Lib.ValueIdx
import Idealize.ShloMosaic.PureOps.Ideal.Laws

noncomputable section

open scoped BigOperators

namespace Cert.Lib.LaneSum3

open Idealize.ShloMosaic Idealize.ShloMosaic.ValueIdx

/-- An f32 lane sum over the last axis of an `[a, b, n]` array, started from the zero word (the sum's neutral element),
    is at `(p, q)` the sum over the lane `l` of the entries `(p, q, l)` on the extended reals. -/
theorem laneSum3 {a b n : ℕ} (v : FVec Ideal ⟨3, ![a, b, n]⟩ .f32) (h : (⟨3, ![a, b, n]⟩ : Shape).Reduces [2] ⟨2, ![a, b]⟩)
    (p : Fin a) (q : Fin b) :
    multiReduction .add [2] ⟨2, ![a, b]⟩ v 0x00000000#32 h (.inl rfl) rfl (ix2 p q) = ∑ l : Fin n, v (ix3 p q l) := by
  refine (Ideal.multiReduction_add_single v 0x00000000#32 h (.inl rfl) rfl (ix2 p q)).trans ?_
  refine Finset.sum_congr rfl fun k _ => congrArg v (funext fun c => Fin.ext ?_)
  match c with
  | ⟨0, _⟩ => rfl
  | ⟨1, _⟩ => rfl
  | ⟨2, _⟩ => rfl

end Cert.Lib.LaneSum3

end
-- ==== Proof.K0Part.lean ====
import proofs.«127413_j61598420959415_2_alg».proof.Proof.K0Acc
import proofs.«127413_j61598420959415_2_alg».proof.Proof.LibSplitConcat
import proofs.«127413_j61598420959415_2_alg».proof.Proof.LibKeepdims
import proofs.«127413_j61598420959415_2_alg».proof.Proof.LibLaneSum3
import Idealize.ShloMosaic.Lib.Pipeline.Value

noncomputable section

open Idealize.ShloMosaic Idealize.ShloMosaic.TcCoe Idealize.SL.Sem

namespace Cert.KernelIdeal.KValue

open Cert.KernelIdeal Cert.KernelIdeal.Gen Idealize.ShloMosaic.ValueIdx Cert.Lib.Keepdims Cert.Lib.LaneSum3 Cert.ReferenceIdeal.Stages

/-- The mask of an entry as the body computes it: the comparison "not zero" as a bit, widened to a word, read signed. -/
def keepK (v : EReal) : EReal :=
  (((((Ideal.cmp .one v (Ideal.ofBits .f32 0x00000000#32)).setWidth 32 : BitVec 32)).toInt : ℝ) : EReal)

section
variable (x : S8x32x4096.Idx → EReal)

/-- The tile's mask, one row per sample: channel 0's entries compared with zero. -/
def maskOf : FVec Ideal S8x1x4096 .f32 :=
  sitofp .f32 (extui 32 (cmpf .one (extractStridedSlice S8x1x4096 ![0, 0, 0] x slices_S8x32x4096_o0_0_0_S8x1x4096)
    (broadcast S8x1x4096 (Scalar.ofBits (F := Ideal) .f32 0x00000000#32))) natLt_1_32)

theorem maskOf_apply (b : Fin 8) (u : Fin 1) (l : Fin 4096) : maskOf x (ix3 b u l) = keepK (x (ix3 b (0 : Fin 32) l)) := by
  have e : extractStridedSlice S8x1x4096 ![0, 0, 0] x slices_S8x32x4096_o0_0_0_S8x1x4096 (ix3 b u l) = x (ix3 b (0 : Fin 32) l) :=
    extractStridedSlice_apply _ x _ (ix3 b u l) (ix3 b (0 : Fin 32) l) (fun a => by
      have hu : u.val = 0 := by omega
      match a with
      | ⟨0, _⟩ => show b.val = 0 + b.val; omega
      | ⟨1, _⟩ => show 0 = 0 + u.val; omega
      | ⟨2, _⟩ => show l.val = 0 + l.val; omega)
  show FloatOps.sitofp (F := Ideal) .f32 ((FloatOps.cmpf (F := Ideal) .one
      (extractStridedSlice S8x1x4096 ![0, 0, 0] x slices_S8x32x4096_o0_0_0_S8x1x4096 (ix3 b u l)) _).setWidth 32) = _
  rw [e]
  rfl

/-- The mask spread over the channels, read at (b, ch, l): the mask of voxel l of sample b. -/
theorem maskB_apply (b : Fin 8) (ch : Fin 32) (l : Fin 4096) :
    broadcastTo S8x32x4096 (maskOf x) broadcasts_S8x1x4096_S8x32x4096 (ix3 b ch l) = keepK (x (ix3 b (0 : Fin 32) l)) := by
  rw [← maskOf_apply x b 0 l]
  refine broadcastTo_apply _ _ (ix3 b ch l) (ix3 b (0 : Fin 1) l) fun a => ?_
  match a with
  | ⟨0, _⟩ => rfl
  | ⟨1, _⟩ => rfl
  | ⟨2, _⟩ => rfl

/-- Column 0: the number of kept voxels of the tile, times 32. -/
theorem part_cnt (b : Fin 8) :
    part (F := Ideal) x (ix2 b (0 : Fin 3))
      = (∑ l : Fin 4096, keepK (x (ix3 b (0 : Fin 32) l))) * Ideal.ofBits .f32 0x42000000#32 := by
  unfold part
  rw [shapeCast_self]
  refine (cat3_first _ _ _ _ b (0 : Fin 1) (by decide)).trans ?_
  show multiReduction .add [2] S8x1 (maskOf x) 0x00000000#32 reduces_S8x1x4096_S8x1 (.inl rfl) rfl (ix2 b (0 : Fin 1)) * _ = _
  rw [laneSum3]
  simp only [maskOf_apply]
  rfl

/-- Column 1: the masked sum over the tile's channels and voxels. -/
theorem part_sum (b : Fin 8) :
    part (F := Ideal) x (ix2 b (1 : Fin 3))
      = ∑ ch : Fin 32, ∑ l : Fin 4096, x (ix3 b ch l) * keepK (x (ix3 b (0 : Fin 32) l)) := by
  unfold part
  rw [shapeCast_self]
  refine (cat3_second _ _ _ _ b (0 : Fin 1) (by decide)).trans ?_
  rw [shapeCast_a_a1_apply, rowSum_f32]
  refine Finset.sum_congr rfl fun ch _ => ?_
  rw [laneSum3]
  refine Finset.sum_congr rfl fun l _ => ?_
  show x (ix3 b ch l) * broadcastTo S8x32x4096 (maskOf x) broadcasts_S8x1x4096_S8x32x4096 (ix3 b ch l) = _
  rw [maskB_apply]

/-- Column 2: the masked sum of squares. -/
theorem part_sq (b : Fin 8) :
    part (F := Ideal) x (ix2 b (2 : Fin 3))
      = ∑ ch : Fin 32, ∑ l : Fin 4096, x (ix3 b ch l) * (x (ix3 b ch l) * keepK (x (ix3 b (0 : Fin 32) l))) := by
  unfold part
  rw [shapeCast_self]
  refine (cat3_third _ _ _ _ b (0 : Fin 1) (by decide)).trans ?_
  rw [shapeCast_a_a1_apply, rowSum_f32]
  refine Finset.sum_congr rfl fun ch _ => ?_
  rw [laneSum3]
  refine Finset.sum_congr rfl fun l _ => ?_
  show x (ix3 b ch l) * (x (ix3 b ch l) * broadcastTo S8x32x4096 (maskOf x) broadcasts_S8x1x4096_S8x32x4096 (ix3 b ch l)) = _
  rw [maskB_apply]

end

end Cert.KernelIdeal.KValue

end
-- ==== Proof.K0Final.lean ====
import proofs.«127413_j61598420959415_2_alg».proof.Proof.K0Part

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (V : (c : Dev nD) → (b : Ref sig .tc) → Buf (Elt Ideal) ((c : Thread nD τ).loc b))

/-- Where the index maps of the reduction pass put point `t`: the input's tile number is `t` itself (core·32 + step),
    the statistics block is the core's, `t / 32`. -/
theorem idx_facts0 : ∀ t : Fin cfg0.N, win0_0.index t (0 : Fin 3) = 0 ∧ win0_0.index t (1 : Fin 3) = 0
    ∧ win0_0.index t (2 : Fin 3) = t.val ∧ win0_1.index t (0 : Fin 3) = t.val / 32
    ∧ win0_1.index t (1 : Fin 3) = 0 ∧ win0_1.index t (2 : Fin 3) = 0 :=
  (by decide +kernel : ∀ t : Fin grid0.N, _)

/-- The entry of a [1,8,3] statistics block that an entry of the [2,8,3] per-core array comes from. -/
def blkIdx (i : S2x8x3.Idx) : S1x8x3.Idx :=
  ix3 (0 : Fin 1) (⟨(i 1).val, (i 1).isLt⟩ : Fin 8) (⟨(i 2).val, (i 2).isLt⟩ : Fin 3)

/-- The per-core statistics after the reduction pass: core `i 0`'s 32 tiles' partial statistics, summed from zero. -/
def G0 (c : Dev nD) : S2x8x3.Idx → EReal := fun i =>
  k0_pay1 (F := Ideal) (blkIdx i) + ∑ s ∈ Finset.range 32, tileM V c (32 * (i 0).val + s) (blkIdx i)

/-- What a core's last point writes back is that core's block of `G0`. -/
theorem flushed0_eq (c : Dev nD) (t : Fin cfg0.N) (hf : (cfg0.win 1).flush t = true) :
    (dat0 V c).flushed 1 t = ((cfg0.win 1).blk t).view.read (Elt Ideal) (G0 V c) := by
  have h31 : t.val % 32 = 31 := (flush0_1 t).mp hf
  obtain ⟨-, -, -, e0, e1, e2⟩ := idx_facts0 t
  show (cfg0.win 1).cut (grid0.coords t) ((dat0 V c).after 1 t) = _
  rw [after0_1]
  funext j
  show outsAt0 V c t.val t.isLt j = G0 V c (((cfg0.win 1).blk t).view.emb j)
  rw [outsAt_sum V c t.val t.isLt j, h31]
  have hj0 : (j 0).val < 1 := (j 0).isLt
  have hj1 : (j 1).val < 8 := (j 1).isLt
  have hj2 : (j 2).val < 3 := (j 2).isLt
  have hb : blkIdx (((cfg0.win 1).blk t).view.emb j) = j := by
    funext a; apply Fin.ext
    match a with
    | ⟨0, _⟩ => show 0 = (j 0).val; omega
    | ⟨1, _⟩ => show win0_1.index t (1 : Fin 3) * 8 + 1 * (j 1).val = (j 1).val; omega
    | ⟨2, _⟩ => show win0_1.index t (2 : Fin 3) * 3 + 1 * (j 2).val = (j 2).val; omega
  have hc : ((((cfg0.win 1).blk t).view.emb j) 0).val = t.val / 32 := by
    show win0_1.index t (0 : Fin 3) * 1 + 1 * (j 0).val = t.val / 32; omega
  unfold G0
  rw [hb, hc]

/-- Every entry of the per-core array is in the block its core's last point writes back. -/
theorem cover0 (i : S2x8x3.Idx) : ∃ t : Fin cfg0.N, (cfg0.win 1).flush t = true ∧ i ∈ ((cfg0.win 1).blk t).view.set := by
  have hN : cfg0.N = 64 := N_0
  have hi0 : (i 0).val < 2 := (i 0).isLt
  have hi1 : (i 1).val < 8 := (i 1).isLt
  have hi2 : (i 2).val < 3 := (i 2).isLt
  let t : Fin cfg0.N := ⟨32 * (i 0).val + 31, by omega⟩
  have ht : t.val = 32 * (i 0).val + 31 := rfl
  obtain ⟨-, -, -, e0, e1, e2⟩ := idx_facts0 t
  refine ⟨t, (flush0_1 t).mpr (by omega), ?_⟩
  show i ∈ ((View.whole main_v1).slice (win0_1.rect t)).set
  rw [View.set_slice_whole, Rect.mem_set_unit]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 8 ≤ (i 1).val ∧ (i 1).val < win0_1.index t (1 : Fin 3) * 8 + 8; omega
  | ⟨2, _⟩ => show win0_1.index t (2 : Fin 3) * 3 ≤ (i 2).val ∧ (i 2).val < win0_1.index t (2 : Fin 3) * 3 + 3; omega

/-- The per-core statistics array after the reduction pass. -/
theorem final0 (c : Dev nD) : (dat0 V c).arrAt 1 cfg0.N = G0 V c :=
  (dat0 V c).arrAt_eq_of_cover 1 (G0 V c) (flushed0_eq V c) cover0

/-- Tile `n` of the flattened input, read at (b, ch, l): voxel `n·4096 + l`. -/
theorem iblk0_apply (c : Dev nD) (n : ℕ) (h : n < cfg0.N) (b : Fin 8) (ch : Fin 32) (l : Fin 4096)
    (hs : n * 4096 + l.val < 262144) :
    iblk0 V c 0 ⟨n, h⟩ (ix3 b ch l) = V c main_v0 (ix3 b ch (⟨n * 4096 + l.val, hs⟩ : Fin 262144)) := by
  obtain ⟨e0, e1, e2, -, -, -⟩ := idx_facts0 ⟨n, h⟩
  unfold iblk0
  rw [View.read_apply]
  show V c main_v0 _ = V c main_v0 _
  congr 1
  funext a; apply Fin.ext
  match a with
  | ⟨0, _⟩ => show win0_0.index ⟨n, h⟩ (0 : Fin 3) * 8 + 1 * b.val = b.val; omega
  | ⟨1, _⟩ => show win0_0.index ⟨n, h⟩ (1 : Fin 3) * 32 + 1 * ch.val = ch.val; omega
  | ⟨2, _⟩ => show win0_0.index ⟨n, h⟩ (2 : Fin 3) * 4096 + 1 * l.val = n * 4096 + l.val; rw [e2]; show n * 4096 + 1 * l.val = _; omega

/-- A tile's partial statistics as a block entry: the [8,3] table's entry. -/
theorem tileM_apply (c : Dev nD) (n : ℕ) (h : n < cfg0.N) (b : Fin 8) (j : Fin 3) :
    tileM V c n (ix3 (0 : Fin 1) b j) = part (F := Ideal) (iblk0 V c 0 ⟨n, h⟩) (ix2 b j) := by
  unfold tileM
  rw [dif_pos h]
  refine (shapeCast_addUnit_apply ![8, 3] _ _ _).trans (congrArg _ (funext fun a => ?_))
  match a with
  | ⟨0, _⟩ => rfl
  | ⟨1, _⟩ => rfl

end Cert.KernelIdeal.KValue

end
-- ==== Proof.K1Pay.lean ====
import proofs.«127413_j61598420959415_2_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

theorem hz3' : (![0, 0, 0] : Fin 3 → Nat) = fun _ => 0 := funext fun a => by fin_cases a <;> rfl
theorem hz1' : (![0] : Fin 1 → Nat) = fun _ => 0 := funext fun a => by fin_cases a <;> rfl

/-- The normalize pass's store, read at an entry y = (p, ch, l) of its [4,32,8192] block: the channel's scale times
    (the entry minus the sample's mean) times the sample's reciprocal deviation, plus the channel's shift. -/
theorem pay1_at (x0 : S4x32x8192.Idx → EReal) (x1 x2 : S4x1x1.Idx → EReal) (x3 x4 : S32.Idx → EReal) (y : S4x32x8192.Idx) :
    k1_pay1 (F := Ideal) x0 x1 x2 x3 x4 y
      = x3 (ix1 (⟨(y 1).val, (y 1).isLt⟩ : Fin 32))
          * (x0 y - x1 (ix3 (⟨(y 0).val, (y 0).isLt⟩ : Fin 4) (0 : Fin 1) (0 : Fin 1)))
          * x2 (ix3 (⟨(y 0).val, (y 0).isLt⟩ : Fin 4) (0 : Fin 1) (0 : Fin 1))
        + x4 (ix1 (⟨(y 1).val, (y 1).isLt⟩ : Fin 32)) := by
  have hb : ∀ (v : S4x1x1.Idx → EReal), broadcastTo S4x32x8192 v broadcasts_S4x1x1_S4x32x8192 y
      = v (ix3 (⟨(y 0).val, (y 0).isLt⟩ : Fin 4) (0 : Fin 1) (0 : Fin 1)) := fun v =>
    broadcastTo_apply v _ y _ fun a => by
      match a with
      | ⟨0, _⟩ => rfl
      | ⟨1, _⟩ => rfl
      | ⟨2, _⟩ => rfl
  have hc : ∀ (v : S32.Idx → EReal), broadcastTo S4x32x8192 (shapeCast S1x32x1 v shapeCasts_S32_S1x32x1) broadcasts_S1x32x1_S4x32x8192 y
      = v (ix1 (⟨(y 1).val, (y 1).isLt⟩ : Fin 32)) := fun v => by
    refine (broadcastTo_apply _ _ y (ix3 (0 : Fin 1) (⟨(y 1).val, (y 1).isLt⟩ : Fin 32) (0 : Fin 1)) fun a => ?_).trans ?_
    · match a with
      | ⟨0, _⟩ => rfl
      | ⟨1, _⟩ => rfl
      | ⟨2, _⟩ => rfl
    · refine shapeCast_apply v _ _ _ ?_
      rw [Shape.rowMajor_val_one, Shape.rowMajor_val_three]
      show (y 1).val = (0 * 32 + (y 1).val) * 1 + 0
      omega
  unfold k1_pay1
  simp only [shapeCast_self]
  rw [addf_apply, mulf_apply, mulf_apply, subf_apply, hb x1, hb x2, hc x3, hc x4]

end Cert.KernelIdeal.KValue

end
-- ==== Proof.K1Final.lean ====
import proofs.«127413_j61598420959415_2_alg».proof.Proof.K1Pay

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (V : (c : Dev nD) → (b : Ref sig .tc) → Buf (Elt Ideal) ((c : Thread nD τ).loc b))

/-- Where the index maps of the normalize pass put point `t` = (half, step): the input and output blocks are
    (half, 0, step), the two per-sample columns' blocks (half, 0, 0), the per-channel vectors whole. -/
theorem idx_facts1 : ∀ t : Fin cfg1.N,
    win1_0.index t (0 : Fin 3) = t.val / 32 ∧ win1_0.index t (1 : Fin 3) = 0 ∧ win1_0.index t (2 : Fin 3) = t.val % 32
    ∧ win1_1.index t (0 : Fin 3) = t.val / 32 ∧ win1_1.index t (1 : Fin 3) = 0 ∧ win1_1.index t (2 : Fin 3) = 0
    ∧ win1_2.index t (0 : Fin 3) = t.val / 32 ∧ win1_2.index t (1 : Fin 3) = 0 ∧ win1_2.index t (2 : Fin 3) = 0
    ∧ win1_3.index t (0 : Fin 1) = 0 ∧ win1_4.index t (0 : Fin 1) = 0
    ∧ win1_5.index t (0 : Fin 3) = t.val / 32 ∧ win1_5.index t (1 : Fin 3) = 0 ∧ win1_5.index t (2 : Fin 3) = t.val % 32 :=
  (by decide +kernel : ∀ t : Fin grid1.N, _)

/-- The sample's entry of a per-sample [8,1,1] column. -/
def colIdx (i : S8x32x262144.Idx) : S8x1x1.Idx := ix3 (⟨(i 0).val, (i 0).isLt⟩ : Fin 8) (0 : Fin 1) (0 : Fin 1)
/-- The channel's entry of a per-channel vector. -/
def chIdx (i : S8x32x262144.Idx) : S32.Idx := ix1 (⟨(i 1).val, (i 1).isLt⟩ : Fin 32)

/-- The normalize pass's result array: entry by entry, scale · (x − mean) · reciprocal deviation + shift, over the
    arrays as the pass finds them. -/
def G1f (g : S32.Idx → EReal) (X : S8x32x262144.Idx → EReal) (mu inv : S8x1x1.Idx → EReal) (bt : S32.Idx → EReal) :
    S8x32x262144.Idx → EReal := fun i =>
  g (chIdx i) * (X i - mu (colIdx i)) * inv (colIdx i) + bt (chIdx i)
def G1 (c : Dev nD) : S8x32x262144.Idx → EReal :=
  G1f (V c main_arg1) (V c main_v0) (V c main_v31) (V c main_v32) (V c main_arg2)

/-- What point `t` writes back is its block of `G1`. -/
theorem flushed1_eq (c : Dev nD) (t : Fin cfg1.N) :
    (dat1 V c).flushed 5 t = ((cfg1.win 5).blk t).view.read (Elt Ideal) (G1 V c) := by
  obtain ⟨a0, a1, a2, b0, b1, b2, c0, c1, c2, d0, e0, f0, f1, f2⟩ := idx_facts1 t
  show (cfg1.win 5).cut (grid1.coords t) ((dat1 V c).after 5 t) = _
  rw [after1_5]
  unfold out1_5
  rw [View.canon_unit_zero hz3']
  simp only [View.ld_unit_zero (S := S4x32x8192) hz3', View.ld_unit_zero (S := S4x1x1) hz3', View.ld_unit_zero (S := S32) hz1']
  funext j
  have hj0 : (j 0).val < 4 := (j 0).isLt
  have hj1 : (j 1).val < 32 := (j 1).isLt
  have hj2 : (j 2).val < 8192 := (j 2).isLt
  refine (pay1_at (iblk1 V c 0 t) (iblk1 V c 1 t) (iblk1 V c 2 t) (iblk1 V c 3 t) (iblk1 V c 4 t) j).trans ?_
  show FloatOps.addf (F := Ideal) (φ := .f32) (FloatOps.mulf (FloatOps.mulf
        (V c main_arg1 (((cfg1.win 3).blk t).view.emb (ix1 (⟨(j 1).val, (j 1).isLt⟩ : Fin 32))))
        (FloatOps.subf (V c main_v0 (((cfg1.win 0).blk t).view.emb j))
          (V c main_v31 (((cfg1.win 1).blk t).view.emb (ix3 (⟨(j 0).val, (j 0).isLt⟩ : Fin 4) (0 : Fin 1) (0 : Fin 1))))))
        (V c main_v32 (((cfg1.win 2).blk t).view.emb (ix3 (⟨(j 0).val, (j 0).isLt⟩ : Fin 4) (0 : Fin 1) (0 : Fin 1)))))
      (V c main_arg2 (((cfg1.win 4).blk t).view.emb (ix1 (⟨(j 1).val, (j 1).isLt⟩ : Fin 32))))
    = G1 V c (((cfg1.win 5).blk t).view.emb j)
  have h0 : ((cfg1.win 0).blk t).view.emb j = ((cfg1.win 5).blk t).view.emb j := by
    funext a; apply Fin.ext
    match a with
    | ⟨0, _⟩ => show win1_0.index t (0 : Fin 3) * 4 + 1 * (j 0).val = win1_5.index t (0 : Fin 3) * 4 + 1 * (j 0).val; omega
    | ⟨1, _⟩ => show win1_0.index t (1 : Fin 3) * 32 + 1 * (j 1).val = win1_5.index t (1 : Fin 3) * 32 + 1 * (j 1).val; omega
    | ⟨2, _⟩ => show win1_0.index t (2 : Fin 3) * 8192 + 1 * (j 2).val = win1_5.index t (2 : Fin 3) * 8192 + 1 * (j 2).val; omega
  have h1 : ((cfg1.win 1).blk t).view.emb (ix3 (⟨(j 0).val, (j 0).isLt⟩ : Fin 4) (0 : Fin 1) (0 : Fin 1))
      = colIdx (((cfg1.win 5).blk t).view.emb j) := by
    funext a; apply Fin.ext
    match a with
    | ⟨0, _⟩ => show win1_1.index t (0 : Fin 3) * 4 + 1 * (j 0).val = win1_5.index t (0 : Fin 3) * 4 + 1 * (j 0).val; omega
    | ⟨1, _⟩ => show win1_1.index t (1 : Fin 3) * 1 + 1 * 0 = 0; omega
    | ⟨2, _⟩ => show win1_1.index t (2 : Fin 3) * 1 + 1 * 0 = 0; omega
  have h2 : ((cfg1.win 2).blk t).view.emb (ix3 (⟨(j 0).val, (j 0).isLt⟩ : Fin 4) (0 : Fin 1) (0 : Fin 1))
      = colIdx (((cfg1.win 5).blk t).view.emb j) := by
    funext a; apply Fin.ext
    match a with
    | ⟨0, _⟩ => show win1_2.index t (0 : Fin 3) * 4 + 1 * (j 0).val = win1_5.index t (0 : Fin 3) * 4 + 1 * (j 0).val; omega
    | ⟨1, _⟩ => show win1_2.index t (1 : Fin 3) * 1 + 1 * 0 = 0; omega
    | ⟨2, _⟩ => show win1_2.index t (2 : Fin 3) * 1 + 1 * 0 = 0; omega
  have h3 : ((cfg1.win 3).blk t).view.emb (ix1 (⟨(j 1).val, (j 1).isLt⟩ : Fin 32)) = chIdx (((cfg1.win 5).blk t).view.emb j) := by
    funext a; apply Fin.ext
    match a with
    | ⟨0, _⟩ => show win1_3.index t (0 : Fin 1) * 32 + 1 * (j 1).val = win1_5.index t (1 : Fin 3) * 32 + 1 * (j 1).val; omega
  have h4 : ((cfg1.win 4).blk t).view.emb (ix1 (⟨(j 1).val, (j 1).isLt⟩ : Fin 32)) = chIdx (((cfg1.win 5).blk t).view.emb j) := by
    funext a; apply Fin.ext
    match a with
    | ⟨0, _⟩ => show win1_4.index t (0 : Fin 1) * 32 + 1 * (j 1).val = win1_5.index t (1 : Fin 3) * 32 + 1 * (j 1).val; omega
  rw [h0, h1, h2, h3, h4]
  rfl

/-- Every entry of the result array is in the block of the point (half, step) = (b / 4, s / 8192). -/
theorem cover1 (i : S8x32x262144.Idx) : ∃ t : Fin cfg1.N, (cfg1.win 5).flush t = true ∧ i ∈ ((cfg1.win 5).blk t).view.set := by
  have hN : cfg1.N = 64 := N_1
  have hi0 : (i 0).val < 8 := (i 0).isLt
  have hi1 : (i 1).val < 32 := (i 1).isLt
  have hi2 : (i 2).val < 262144 := (i 2).isLt
  let t : Fin cfg1.N := ⟨32 * ((i 0).val / 4) + (i 2).val / 8192, by omega⟩
  have ht : t.val = 32 * ((i 0).val / 4) + (i 2).val / 8192 := rfl
  obtain ⟨-, -, -, -, -, -, -, -, -, -, -, f0, f1, f2⟩ := idx_facts1 t
  refine ⟨t, flush1_5 t, ?_⟩
  show i ∈ ((View.whole main_v33).slice (win1_5.rect t)).set
  rw [View.set_slice_whole, Rect.mem_set_unit]
  intro a
  match a with
  | ⟨0, _⟩ => show win1_5.index t (0 : Fin 3) * 4 ≤ (i 0).val ∧ (i 0).val < win1_5.index t (0 : Fin 3) * 4 + 4; omega
  | ⟨1, _⟩ => show win1_5.index t (1 : Fin 3) * 32 ≤ (i 1).val ∧ (i 1).val < win1_5.index t (1 : Fin 3) * 32 + 32; omega
  | ⟨2, _⟩ => show win1_5.index t (2 : Fin 3) * 8192 ≤ (i 2).val ∧ (i 2).val < win1_5.index t (2 : Fin 3) * 8192 + 8192; omega

/-- The result array after the normalize pass. -/
theorem final1 (c : Dev nD) : (dat1 V c).arrAt 5 cfg1.N = G1 V c :=
  (dat1 V c).arrAt_eq_of_cover 5 (G1 V c) (fun t _ => flushed1_eq V c t) cover1

end Cert.KernelIdeal.KValue

end
-- ==== Proof.Spec.lean ====
/-
  Masked per-sample normalisation, stated once over the extended reals.

  The input is read flattened, `x : [8, 32, 262144]` (sample, channel, voxel).  A voxel of a sample is KEPT when the sample's
  channel-0 entry there is not zero; `keep v` is 1 or 0 accordingly.  Per sample `b`:
    cnt b = (number of kept voxels) · 32          (every channel of a kept voxel counts)
    sm  b = Σ_ch Σ_s x(b,ch,s) · keep             (masked sum)
    sq  b = Σ_ch Σ_s x(b,ch,s) · (x(b,ch,s) · keep)   (masked sum of squares)
  `meanOf` is `sm / max cnt 1` where `cnt > 0`, else 0; `denOf` is the unbiased standard deviation
  `sqrt (max ((sq - cnt·mean·mean) / max (cnt - 1) 1) 0)` where `cnt > 0`, else 1, plus ε.
  The normalised value at (b, ch, ·) is `γ ch · ((x - mean b) / den b) + β ch`.
  The float literals stay as their words: the same word stands on both sides of every equation below, so only
  two facts about them are ever needed (0 is zero, ε is positive).
-/
import Idealize.ShloMosaic.PureOps.Ideal
import Idealize.ShloMosaic.PureOps.Ideal.Laws
import Idealize.ShloMosaic.Lib.ValueIdx

noncomputable section

namespace Cert.MaskedNorm

open Idealize.ShloMosaic Idealize.ShloMosaic.ValueIdx

/-- The literal words of the two programs. -/
abbrev Z : EReal := Ideal.ofBits .f32 0x00000000#32
abbrev ONE : EReal := Ideal.ofBits .f32 0x3F800000#32
abbrev C32 : EReal := Ideal.ofBits .f32 0x42000000#32
abbrev EPS : EReal := Ideal.ofBits .f32 0x3727C5AC#32

/-- 1 where the entry is not zero, else 0. -/
def keep (v : EReal) : EReal := (((Ideal.cmp .une v Z).toNat : ℝ) : EReal)

theorem keep_nonneg (v : EReal) : 0 ≤ keep v := by
  unfold keep; exact_mod_cast Nat.cast_nonneg _

/-- The flattened input's shape and the five-axis one. -/
abbrev X3 : Shape := ⟨3, ![8, 32, 262144]⟩
abbrev X5 : Shape := ⟨5, ![8, 32, 64, 64, 64]⟩

/-- Voxel `s` of sample `b` is kept. -/
def kept (x : X3.Idx → EReal) (b : Fin 8) (s : Fin 262144) : EReal := keep (x (ix3 b (0 : Fin 32) s))

def cnt (x : X3.Idx → EReal) (b : Fin 8) : EReal := (∑ s : Fin 262144, kept x b s) * C32
def sm (x : X3.Idx → EReal) (b : Fin 8) : EReal := ∑ ch : Fin 32, ∑ s : Fin 262144, x (ix3 b ch s) * kept x b s
def sq (x : X3.Idx → EReal) (b : Fin 8) : EReal :=
  ∑ ch : Fin 32, ∑ s : Fin 262144, x (ix3 b ch s) * (x (ix3 b ch s) * kept x b s)

/-- The mean from the three statistics. -/
def meanOf (c s : EReal) : EReal := Scalar.select (Ideal.cmp .ogt c Z) (Ideal.div s (max c ONE)) Z

/-- The standard deviation plus ε from the three statistics. -/
def denOf (c s q : EReal) : EReal :=
  Scalar.select (Ideal.cmp .ogt c Z)
    (Ideal.sqrt (max (Ideal.div (q - c * meanOf c s * meanOf c s) (max (c - ONE) ONE)) Z)) ONE + EPS

/-- A voxel of the five-axis array from its flat position: s = d·4096 + h·64 + w. -/
def vox (b : Fin 8) (ch : Fin 32) (s : Fin 262144) : X5.Idx :=
  ix5 b ch ⟨s.val / 4096, by omega⟩ ⟨s.val / 64 % 64, by omega⟩ ⟨s.val % 64, by omega⟩

/-- The flat position of a five-axis index. -/
def flat (i : X5.Idx) : Fin 262144 :=
  ⟨(i 2).val * 4096 + (i 3).val * 64 + (i 4).val, by
    have h2 : (i 2).val < 64 := (i 2).isLt
    have h3 : (i 3).val < 64 := (i 3).isLt
    have h4 : (i 4).val < 64 := (i 4).isLt
    omega⟩

/-- The flattened array of a five-axis one. -/
def flatten (x5 : X5.Idx → EReal) : X3.Idx → EReal := fun j => x5 (vox (j 0) (j 1) (j 2))

/-- THE RESULT, five-axis: the statistics are those of the flattened input. -/
def result (x5 : X5.Idx → EReal) (γ β : (⟨1, ![32]⟩ : Shape).Idx → EReal) : X5.Idx → EReal := fun i =>
  γ (ix1 (i 1)) * Ideal.div (x5 i - meanOf (cnt (flatten x5) (i 0)) (sm (flatten x5) (i 0)))
      (denOf (cnt (flatten x5) (i 0)) (sm (flatten x5) (i 0)) (sq (flatten x5) (i 0))) + β (ix1 (i 1))

end Cert.MaskedNorm

end
-- ==== Proof.LibBlockSum.lean ====
/-
  Regrouping a long sum into consecutive blocks.

  A sum over `N = G · L` consecutive positions is the sum, over the `G` blocks of `L` consecutive positions each, of the
  blocks' own sums: position `kk` of block `kb` is position `L · kb + kk` of the whole range. Only commutativity and
  associativity of `+` are used, so the law holds in every additive commutative monoid — in particular on the extended
  reals, where `+` is commutative and associative although it does not cancel and `·` does not distribute at the
  infinities. It is the law that joins a contraction (a matrix product, a long reduction) accumulated block by block
  with the same contraction taken in one piece.

  `sum_blocks` states it over `Fin (G * L)`; `sum_blocks_of_eq` over `Fin N` for a total `N` given with `N = G * L`
  (for literal sizes the equation is `rfl`), the position written `⟨L * kb + kk, _⟩`.
-/
import Mathlib.Logic.Equiv.Fin.Basic
import Mathlib.Data.Fintype.BigOperators

namespace Cert.Lib.BlockSum

open Finset

/-- Position `kk` of block `kb`, among `G · L` consecutive positions cut into `G` blocks of `L`. -/
def blockPos (G L : ℕ) (kb : Fin G) (kk : Fin L) : Fin (G * L) := finProdFinEquiv (kb, kk)

/-- As a number, position `kk` of block `kb` is `kk + L · kb`. -/
theorem blockPos_val (G L : ℕ) (kb : Fin G) (kk : Fin L) : (blockPos G L kb kk).val = kk.val + L * kb.val := rfl

/-- `L · kb + kk` is one of the `N = G · L` positions. -/
theorem blockPos_lt {G L N : ℕ} (hN : N = G * L) (kb : Fin G) (kk : Fin L) : L * kb.val + kk.val < N :=
  calc L * kb.val + kk.val < L * kb.val + L := Nat.add_lt_add_left kk.isLt _
    _ = L * (kb.val + 1) := (Nat.mul_succ L kb.val).symm
    _ ≤ L * G := Nat.mul_le_mul_left L kb.isLt
    _ = N := by rw [hN, Nat.mul_comm]

/-- A sum over `G · L` positions is the sum over the blocks of each block's sum. -/
theorem sum_blocks {M : Type*} [AddCommMonoid M] (G L : ℕ) (f : Fin (G * L) → M) :
    ∑ k, f k = ∑ kb : Fin G, ∑ kk : Fin L, f (blockPos G L kb kk) :=
  (Fintype.sum_equiv finProdFinEquiv (fun p => f (finProdFinEquiv p)) f (fun _ => rfl)).symm.trans
    (Fintype.sum_prod_type _)

/-- The same over `Fin N` with `N = G · L`, the position written `L · kb + kk`. -/
theorem sum_blocks_of_eq {M : Type*} [AddCommMonoid M] {G L N : ℕ} (hN : N = G * L) (f : Fin N → M) :
    ∑ k, f k = ∑ kb : Fin G, ∑ kk : Fin L, f ⟨L * kb.val + kk.val, blockPos_lt hN kb kk⟩ := by
  subst hN
  refine (sum_blocks G L f).trans ?_
  refine Finset.sum_congr rfl fun kb _ => Finset.sum_congr rfl fun kk _ => congrArg f (Fin.ext ?_)
  show kk.val + L * kb.val = L * kb.val + kk.val
  exact Nat.add_comm _ _

end Cert.Lib.BlockSum
-- ==== Proof.LibNonnegSum.lean ====
/-
  A factor taken out of a finite sum of extended reals whose summands are not negative.

  Multiplication does not distribute over addition on the extended reals in general (⊤ + ⊥ is ⊥), but it does over
  summands that are not negative.  So a kernel that scales each tile's partial count by a constant and adds the scaled
  partial counts computes the constant times the whole count: `Σᵢ (aᵢ · w) = (Σᵢ aᵢ) · w` when every `aᵢ ≥ 0`, whatever
  the factor `w` is (finite or not, of either sign).
-/
import Mathlib.Data.EReal.Operations
import Mathlib.Algebra.BigOperators.Group.Finset.Basic
import Mathlib.Algebra.Order.BigOperators.Group.Finset

open scoped BigOperators

namespace Cert.Lib.NonnegSum

/-- Over summands that are not negative, a right factor distributes over a finite sum of extended reals. -/
theorem sum_mul_of_nonneg {ι : Type*} (S : Finset ι) (a : ι → EReal) (ha : ∀ i ∈ S, 0 ≤ a i) (w : EReal) :
    (∑ i ∈ S, a i) * w = ∑ i ∈ S, a i * w := by
  induction S using Finset.cons_induction with
  | empty => simp
  | cons i S hi ih =>
    have h0 : ∀ j ∈ S, 0 ≤ a j := fun j hj => ha j (Finset.mem_cons_of_mem hj)
    rw [Finset.sum_cons, Finset.sum_cons,
      EReal.right_distrib_of_nonneg (ha i (Finset.mem_cons_self i S)) (Finset.sum_nonneg h0), ih h0]

end Cert.Lib.NonnegSum
-- ==== Proof.Laws.lean ====
/-
  The pure laws the tiled side of the masked normalisation needs, over the extended reals.

  * the mask: the comparison "not equal to zero", widened from one bit to a word and read as a signed integer, is 1 or 0,
    i.e. `keep`;
  * multiplying by the reciprocal of a divisor that is not zero is dividing by it;
  * the divisor "standard deviation plus ε" is never zero: it is a sum of a value that is not negative and a positive one;
  * a sum over the 262144 voxels walked as 2 × 32 tiles of 4096 consecutive voxels is the sum over all voxels, and
    a factor that multiplies each tile's (nonnegative) partial sum can be taken out of the whole sum;
  * reshaping between the five-axis array and the flattened one, read at an index.
-/
import proofs.«127413_j61598420959415_2_alg».proof.Proof.Spec
import proofs.«127413_j61598420959415_2_alg».proof.Proof.LibBlockSum
import proofs.«127413_j61598420959415_2_alg».proof.Proof.LibNonnegSum
import Idealize.ShloMosaic.Lib.IdealHost
import Idealize.ShloMosaic.Lib.Pipeline.Value

noncomputable section

namespace Cert.MaskedNorm

open Idealize.ShloMosaic Idealize.ShloMosaic.ValueIdx Cert.Lib.NonnegSum

/-! ## The mask -/

/-- A one-bit word widened to 32 bits without sign and read as a signed integer is the bit's number. -/
theorem bit_signed (b : BitVec 1) : (((b.setWidth 32 : BitVec 32).toInt : ℝ) : EReal) = ((b.toNat : ℝ) : EReal) := by
  rcases BitVec.eq_zero_or_eq_one b with h | h
  · subst h
    have h1 : ((0#1 : BitVec 1).setWidth 32 : BitVec 32).toInt = 0 := by decide
    have h2 : (0#1 : BitVec 1).toNat = 0 := by decide
    rw [h1, h2]; norm_num
  · subst h
    have h1 : ((1#1 : BitVec 1).setWidth 32 : BitVec 32).toInt = 1 := by decide
    have h2 : (1#1 : BitVec 1).toNat = 1 := by decide
    rw [h1, h2]; norm_num

/-- The mask as the tiled side computes it ("ordered and not equal" to zero, widened, read signed) is `keep`:
    on the extended reals the ordered and the unordered "not equal" are the same comparison. -/
theorem keep_signed (v : EReal) :
    ((((Ideal.cmp .one v Z).setWidth 32 : BitVec 32).toInt : ℝ) : EReal) = keep v := by
  have h : Ideal.cmp .one v Z = Ideal.cmp .une v Z := rfl
  rw [h, bit_signed]; rfl

/-! ## Normalising -/

/-- The word of one is 1. -/
theorem ONE_eq : ONE = 1 := Ideal.ofBits_one_f32

/-- The word of zero is 0. -/
theorem Z_eq : Z = 0 := Ideal.ofBits_zero_f32

/-- Multiplying by the reciprocal of a divisor that is not zero is dividing by it. -/
theorem normalize_eq (g a μ d β : EReal) (hd : d ≠ 0) :
    g * (a - μ) * Ideal.div ONE d + β = g * Ideal.div (a - μ) d + β := by
  rw [ONE_eq]
  unfold Ideal.div
  rw [if_neg hd, if_neg hd, one_mul, mul_assoc]

/-- Multiplying by the reciprocal of a divisor that is not zero is dividing by it (the statement of `normalize_eq` again). -/
theorem mul_recip_eq_div (g a μ d β : EReal) (hd : d ≠ 0) :
    g * (a - μ) * Ideal.div ONE d + β = g * Ideal.div (a - μ) d + β := normalize_eq g a μ d β hd

/-! ## The divisor is not zero -/

/-- ε is positive. -/
theorem EPS_pos : 0 < EPS := by
  simp [Ideal.ofBits, Ideal.ieee, -EReal.coe_mul]

/-- The square root of a value that is not negative is not negative. -/
theorem sqrt_nonneg {t : EReal} (ht : 0 ≤ t) : 0 ≤ Ideal.sqrt t := by
  induction t using EReal.rec with
  | bot => exact absurd ht (by simp)
  | coe r =>
    have hr : 0 ≤ r := EReal.coe_nonneg.mp ht
    rw [Ideal.sqrt_coe, if_neg (not_lt.mpr hr)]
    exact EReal.coe_nonneg.mpr (Real.sqrt_nonneg r)
  | top => exact le_top

/-- The standard deviation plus ε is never zero: a value that is not negative plus a positive one. -/
theorem denOf_ne_zero (c s q : EReal) : denOf c s q ≠ 0 := by
  unfold denOf
  apply ne_of_gt
  refine lt_of_lt_of_le EPS_pos (le_add_of_nonneg_left ?_)
  unfold Scalar.select
  split
  · exact sqrt_nonneg (by rw [Z_eq]; exact le_max_right _ _)
  · rw [ONE_eq]; exact zero_le_one

/-! ## Sums over the voxels, walked tile by tile -/

open Cert.Lib.BlockSum in
/-- The 262144 voxels walked as 2 × 32 tiles of 4096 consecutive voxels: the tiles' sums add up to the whole sum. -/
theorem sum_tiles {M : Type*} [AddCommMonoid M] (g : Fin 262144 → M) :
    ∑ c : Fin 2, ∑ t : Fin 32, ∑ l : Fin 4096,
        g ⟨(c.val * 32 + t.val) * 4096 + l.val, by have := c.isLt; have := t.isLt; have := l.isLt; omega⟩
      = ∑ s : Fin 262144, g s := by
  have h1 : (262144 : ℕ) = 64 * 4096 := by norm_num
  have h2 : (64 : ℕ) = 2 * 32 := by norm_num
  symm
  calc ∑ s : Fin 262144, g s
      = ∑ kb : Fin 64, ∑ kk : Fin 4096, g ⟨4096 * kb.val + kk.val, blockPos_lt h1 kb kk⟩ :=
        sum_blocks_of_eq h1 g
    _ = ∑ c : Fin 2, ∑ t : Fin 32, ∑ kk : Fin 4096,
          g ⟨4096 * (32 * c.val + t.val) + kk.val,
            blockPos_lt h1 (⟨32 * c.val + t.val, blockPos_lt h2 c t⟩ : Fin 64) kk⟩ :=
        sum_blocks_of_eq h2
          (fun kb : Fin 64 => ∑ kk : Fin 4096, g ⟨4096 * kb.val + kk.val, blockPos_lt h1 kb kk⟩)
    _ = _ := by
        refine Finset.sum_congr rfl fun c _ => Finset.sum_congr rfl fun t _ => Finset.sum_congr rfl fun l _ => ?_
        congr 1
        apply Fin.ext
        show 4096 * (32 * c.val + t.val) + l.val = (c.val * 32 + t.val) * 4096 + l.val
        omega

/-- The same with a channel sum inside each tile: the order of summation does not matter. -/
theorem sum_tiles_ch {M : Type*} [AddCommMonoid M] (g : Fin 32 → Fin 262144 → M) :
    ∑ c : Fin 2, ∑ t : Fin 32, ∑ ch : Fin 32, ∑ l : Fin 4096,
        g ch ⟨(c.val * 32 + t.val) * 4096 + l.val, by have := c.isLt; have := t.isLt; have := l.isLt; omega⟩
      = ∑ ch : Fin 32, ∑ s : Fin 262144, g ch s := by
  calc _ = ∑ c : Fin 2, ∑ ch : Fin 32, ∑ t : Fin 32, ∑ l : Fin 4096,
            g ch ⟨(c.val * 32 + t.val) * 4096 + l.val,
              by have := c.isLt; have := t.isLt; have := l.isLt; omega⟩ :=
        Finset.sum_congr rfl fun c _ => Finset.sum_comm
    _ = ∑ ch : Fin 32, ∑ c : Fin 2, ∑ t : Fin 32, ∑ l : Fin 4096,
            g ch ⟨(c.val * 32 + t.val) * 4096 + l.val,
              by have := c.isLt; have := t.isLt; have := l.isLt; omega⟩ := Finset.sum_comm
    _ = _ := Finset.sum_congr rfl fun ch _ => sum_tiles (g ch)

/-- The count: each tile's number of kept voxels times the factor, added over the tiles, is the whole number of kept
    voxels times the factor (the numbers are not negative, so the factor distributes). -/
theorem cnt_tiles (k : Fin 262144 → EReal) (hk : ∀ s, 0 ≤ k s) (w : EReal) :
    ∑ c : Fin 2, ∑ t : Fin 32,
        (∑ l : Fin 4096,
          k ⟨(c.val * 32 + t.val) * 4096 + l.val, by have := c.isLt; have := t.isLt; have := l.isLt; omega⟩) * w
      = (∑ s : Fin 262144, k s) * w := by
  rw [← sum_tiles k, sum_mul_of_nonneg _ _ (fun c _ => Finset.sum_nonneg fun t _ => Finset.sum_nonneg fun l _ => hk _)]
  refine Finset.sum_congr rfl fun c _ => ?_
  rw [sum_mul_of_nonneg _ _ (fun t _ => Finset.sum_nonneg fun l _ => hk _)]

/-! ## Reshaping between five axes and the flattened array -/

/-- A voxel's flat position and back. -/
theorem vox_flat (i : X5.Idx) : vox (i 0) (i 1) (flat i) = i := by
  have h2 : (i 2).val < 64 := (i 2).isLt
  have h3 : (i 3).val < 64 := (i 3).isLt
  have h4 : (i 4).val < 64 := (i 4).isLt
  funext a
  match a with
  | ⟨0, _⟩ => rfl
  | ⟨1, _⟩ => rfl
  | ⟨2, _⟩ =>
    apply Fin.ext
    show ((i 2).val * 4096 + (i 3).val * 64 + (i 4).val) / 4096 = (i 2).val
    omega
  | ⟨3, _⟩ =>
    apply Fin.ext
    show ((i 2).val * 4096 + (i 3).val * 64 + (i 4).val) / 64 % 64 = (i 3).val
    omega
  | ⟨4, _⟩ =>
    apply Fin.ext
    show ((i 2).val * 4096 + (i 3).val * 64 + (i 4).val) % 64 = (i 4).val
    omega

/-- A flat position's voxel and back. -/
theorem flat_vox (b : Fin 8) (ch : Fin 32) (s : Fin 262144) : flat (vox b ch s) = s := by
  have hs : s.val < 262144 := s.isLt
  apply Fin.ext
  show s.val / 4096 * 4096 + s.val / 64 % 64 * 64 + s.val % 64 = s.val
  omega

/-- The five-axis array reshaped to three axes is the flattened array: both read the element at the same row-major
    position. -/
theorem flatten_eq (x5 : X5.Idx → EReal) (h : X5.ShapeCasts X3) : shapeCast X3 x5 h = flatten x5 := by
  funext j
  have hs : (j 2).val < 262144 := (j 2).isLt
  refine shapeCast_apply x5 h j (vox (j 0) (j 1) (j 2)) ?_
  rw [Shape.rowMajor_val_five, Shape.rowMajor_val_three]
  show (((((j 0).val * 32 + (j 1).val) * 64 + (j 2).val / 4096) * 64 + (j 2).val / 64 % 64) * 64 + (j 2).val % 64)
      = ((j 0).val * 32 + (j 1).val) * 262144 + (j 2).val
  omega

/-- The three-axis array reshaped back to five axes reads, at a voxel, the element at the voxel's flat position. -/
theorem unflatten_apply (y : X3.Idx → EReal) (h : X3.ShapeCasts X5) (i : X5.Idx) :
    shapeCast X5 y h i = y (ix3 (i 0) (i 1) (flat i)) := by
  refine shapeCast_apply y h i (ix3 (i 0) (i 1) (flat i)) ?_
  rw [Shape.rowMajor_val_three, Shape.rowMajor_val_five]
  show ((i 0).val * 32 + (i 1).val) * 262144 + ((i 2).val * 4096 + (i 3).val * 64 + (i 4).val)
      = (((((i 0).val * 32 + (i 1).val) * 64 + (i 2).val) * 64 + (i 3).val) * 64 + (i 4).val)
  omega

end Cert.MaskedNorm

end
-- ==== Proof.KStages.lean ====
import proofs.«127413_j61598420959415_2_alg».proof.Proof.K0Final
import proofs.«127413_j61598420959415_2_alg».proof.Proof.K1Final
import proofs.«127413_j61598420959415_2_alg».proof.Proof.Laws
import Idealize.ShloMosaic.Lib.StableHlo.Run

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Idealize.ShloMosaic.StableHlo

variable (m : (ℓ : Loc nD τ sig) → Buf (Elt Ideal) ℓ) (ρ : Dev nD → PrngReg) (c : Dev nD)

/-- After the reduction pass the per-core statistics array holds `G0` of the buffers the pass was entered with. -/
theorem W2_v1 : W2 m ρ c (Proc.devRef .tc main_v1) = G0 (V1 m ρ) c :=
  (W2_arr m ρ c 1).trans (final0 (V1 m ρ) c)

/-- After the normalize pass its result array holds `G1` of the buffers the pass was entered with. -/
theorem W8_v33 : W8 m ρ c (Proc.devRef .tc main_v33) = G1 (V7 m ρ) c :=
  (W8_arr m ρ c 5).trans (final1 (V7 m ρ) c)

/-- The reduction pass is entered with the input flattened to [8, 32, 262144]. -/
theorem V1_x : (V1 m ρ c main_v0 : Cert.MaskedNorm.X3.Idx → EReal) = Cert.MaskedNorm.flatten (m ((c : Thread nD τ).loc main_arg0)) := by
  show W1 m ρ c (Proc.devRef .tc main_v0) = _
  refine Eq.trans (b := shapeCast S8x32x262144 (W0 m ρ c (Proc.devRef .tc main_arg0)) shapeCasts_S8x32x64x64x64_S8x32x262144) ?_
    (Cert.MaskedNorm.flatten_eq _ _)
  dsimp only [W1, hostOps0]
  after_results
  rfl

end Cert.KernelIdeal.KValue

end
-- ==== Proof.KHost.lean ====
/-
  What the host operations of the tiled program's entry function leave in its buffers, at the extended reals.

  The entry function reshapes the input to three axes, runs the statistics pass, turns the pass's two partial rows into
  the count, the sum and the sum of squares of each sample, forms the mean and the reciprocal of the standard deviation
  plus ε from them, runs the normalising pass and reshapes its result back to five axes.  Each statement below reads one
  buffer at one boundary between these stretches as the composed term of the operations that wrote it.
-/
import proofs.«127413_j61598420959415_2_alg».proof.Proof.Gen.KernelIdeal.Frame
import proofs.«127413_j61598420959415_2_alg».proof.Proof.Spec
import proofs.«127413_j61598420959415_2_alg».proof.Proof.Laws
import Idealize.ShloMosaic.Lib.StableHlo.Run
import Idealize.ShloMosaic.Lib.Pipeline.Value
import Idealize.ShloMosaic.PureOps.Ideal.Laws

noncomputable section

namespace Cert.KernelIdeal.KValue

open Cert.KernelIdeal Cert.KernelIdeal.Gen Cert.MaskedNorm Idealize.ShloMosaic Idealize.ShloMosaic.TcCoe Idealize.SL.Sem
  Idealize.ShloMosaic.StableHlo Idealize.ShloMosaic.ValueIdx

variable (m : (ℓ : Loc nD τ sig) → Buf (Elt Ideal) ℓ) (ρ : Dev nD → PrngReg) (c : Dev nD)

/-! ## The result: the normalising pass's output reshaped to five axes -/

theorem W9_out : W9 m ρ c (Proc.devRef .tc main_v34)
    = shapeCast S8x32x64x64x64 (W8 m ρ c (Proc.devRef .tc main_v33)) shapeCasts_S8x32x262144_S8x32x64x64x64 := by
  dsimp only [W9, hostOps2]
  after_results
  rfl

/-! ## Buffers that a stretch of host operations does not write keep their contents -/

/-- Closes `after ops V b = V b` for one of the entry function's literal stretches when no operation of it writes `b`. -/
local macro "unwritten" : tactic =>
  `(tactic| (refine List.forall_iff_forall_mem.mp ?_
             simp only [hostOps0, hostOps1, hostOps1_1, hostOps1_2, hostOps1_3, hostOps1_4, hostOps2, List.flatten_cons,
               List.flatten_nil, List.append_nil, List.cons_append, List.nil_append, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-- From the statistics pass's exit to the normalising pass's entry no host operation writes `r`. -/
theorem W7_eq_W2 (r : Ref sig .tc)
    (h1 : ∀ op ∈ (hostOps1 : List (HloOp τ sig (Elt Ideal))), Proc.devRef (τ := τ) .tc r ∉ op.writes)
    (h2 : ∀ op ∈ (hostOps1_1 : List (HloOp τ sig (Elt Ideal))), Proc.devRef (τ := τ) .tc r ∉ op.writes)
    (h3 : ∀ op ∈ (hostOps1_2 : List (HloOp τ sig (Elt Ideal))), Proc.devRef (τ := τ) .tc r ∉ op.writes)
    (h4 : ∀ op ∈ (hostOps1_3 : List (HloOp τ sig (Elt Ideal))), Proc.devRef (τ := τ) .tc r ∉ op.writes)
    (h5 : ∀ op ∈ (hostOps1_4 : List (HloOp τ sig (Elt Ideal))), Proc.devRef (τ := τ) .tc r ∉ op.writes) :
    W7 m ρ c (Proc.devRef .tc r) = W2 m ρ c (Proc.devRef .tc r) :=
  calc W7 m ρ c (Proc.devRef .tc r)
    _ = W6 m ρ c (Proc.devRef .tc r) := StableHlo.after_of_forall_not_mem _ _ h5
    _ = W5 m ρ c (Proc.devRef .tc r) := StableHlo.after_of_forall_not_mem _ _ h4
    _ = W4 m ρ c (Proc.devRef .tc r) := StableHlo.after_of_forall_not_mem _ _ h3
    _ = W3 m ρ c (Proc.devRef .tc r) := StableHlo.after_of_forall_not_mem _ _ h2
    _ = W2 m ρ c (Proc.devRef .tc r) := StableHlo.after_of_forall_not_mem _ _ h1

/-- The flattened input: written once, by the first reshape; the statistics pass only reads it. -/
theorem W7_x : W7 m ρ c (Proc.devRef .tc main_v0) = flatten (m ((c : Thread nD τ).loc main_arg0)) :=
  calc W7 m ρ c (Proc.devRef .tc main_v0)
    _ = W2 m ρ c (Proc.devRef .tc main_v0) := by
        apply W7_eq_W2 <;> unwritten
    _ = W1 m ρ c (Proc.devRef .tc main_v0) :=
        (W2_arr m ρ c 0).trans (((dat0 (V1 m ρ) c).arrAt_in 0 rfl _).trans (A_eq0 (V1 m ρ) c 0))
    _ = shapeCast S8x32x262144 (W0 m ρ c (Proc.devRef .tc main_arg0)) shapeCasts_S8x32x64x64x64_S8x32x262144 := by
        dsimp only [W1, hostOps0]
        after_results
        rfl
    _ = flatten (m ((c : Thread nD τ).loc main_arg0)) := flatten_eq _ _

/-- The scale: an argument no host operation and no pass writes. -/
theorem W7_g : W7 m ρ c (Proc.devRef .tc main_arg1) = m ((c : Thread nD τ).loc main_arg1) :=
  calc W7 m ρ c (Proc.devRef .tc main_arg1)
    _ = W2 m ρ c (Proc.devRef .tc main_arg1) := by
        apply W7_eq_W2 <;> unwritten
    _ = W1 m ρ c (Proc.devRef .tc main_arg1) := W2_of_ne m ρ c main_arg1 (by decide)
    _ = W0 m ρ c (Proc.devRef .tc main_arg1) := StableHlo.after_of_forall_not_mem _ _ (by unwritten)
    _ = m ((c : Thread nD τ).loc main_arg1) := rfl

/-- The shift: likewise. -/
theorem W7_b : W7 m ρ c (Proc.devRef .tc main_arg2) = m ((c : Thread nD τ).loc main_arg2) :=
  calc W7 m ρ c (Proc.devRef .tc main_arg2)
    _ = W2 m ρ c (Proc.devRef .tc main_arg2) := by
        apply W7_eq_W2 <;> unwritten
    _ = W1 m ρ c (Proc.devRef .tc main_arg2) := W2_of_ne m ρ c main_arg2 (by decide)
    _ = W0 m ρ c (Proc.devRef .tc main_arg2) := StableHlo.after_of_forall_not_mem _ _ (by unwritten)
    _ = m ((c : Thread nD τ).loc main_arg2) := rfl

/-! ## The statistics: the two partial rows of the statistics pass added up -/

/-- The host's sum over the two partial rows, read at (sample, statistic): zero plus the two rows' entries. -/
theorem stats_apply (o : S2x8x3.Idx → EReal) (b : Fin 8) (j : Fin 3) :
    Host.reduceAdd (F := Ideal) o (constant S_ .f32 0x00000000#32) reducesTo_S2x8x3_S8x3_d0 h_S_ (ix2 b j)
      = Z + ∑ k : Fin 2, o (ix3 k b j) := by
  have h : S2x8x3.Reduces [0] S8x3 := by decide
  have hl : ∀ k : Fin 2, h.lift (ix2 b j) k = ix3 k b j := fun k => by
    funext a
    match a with
    | ⟨0, _⟩ => exact Fin.ext rfl
    | ⟨1, _⟩ => exact Fin.ext rfl
    | ⟨2, _⟩ => exact Fin.ext rfl
  calc Host.reduceAdd (F := Ideal) o (constant S_ .f32 0x00000000#32) reducesTo_S2x8x3_S8x3_d0 h_S_ (ix2 b j)
      = Ideal.hostReduceAdd reducesTo_S2x8x3_S8x3_d0 o Z (ix2 b j) := rfl
    _ = Z + ∑ k : Fin 2, o (h.lift (ix2 b j) k) := Ideal.hostReduceAdd_single reducesTo_S2x8x3_S8x3_d0 h o Z (ix2 b j)
    _ = Z + ∑ k : Fin 2, o (ix3 k b j) := by simp only [hl]

/-! ## The mean and the reciprocal of the divisor, from the statistics -/

/-- The three statistics of each sample — row `b` holds (count, sum, sum of squares) —: the two partial rows of the
    statistics pass added up. -/
def st : S8x3.Idx → EReal :=
  Host.reduceAdd (F := Ideal) (W2 m ρ c (Proc.devRef .tc main_v1)) (constant S_ .f32 0x00000000#32)
    reducesTo_S2x8x3_S8x3_d0 h_S_

/-- The statistics pass's output: two partial rows of (count, sum, sum of squares) per sample. -/
def perCore : S2x8x3.Idx → EReal := W2 m ρ c (Proc.devRef .tc main_v1)

/-- A statistic of a sample: zero plus the two partial rows' entries. -/
theorem st_apply (b : Fin 8) (j : Fin 3) : st m ρ c (ix2 b j) = Z + ∑ k : Fin 2, perCore m ρ c (ix3 k b j) :=
  stats_apply (perCore m ρ c) b j

/-- The counts, the sums and the sums of squares as the host slices them out: one column each, as a vector over samples. -/
def col0 : FVec Ideal S8 .f32 :=
  shapeCast S8 (extractStridedSlice S8x1 ![0, 0] (st m ρ c) slices_S8x3_S8x1_0_0) shapeCasts_S8x1_S8
def col1 : FVec Ideal S8 .f32 :=
  shapeCast S8 (extractStridedSlice S8x1 ![0, 1] (st m ρ c) slices_S8x3_S8x1_0_1) shapeCasts_S8x1_S8
def col2 : FVec Ideal S8 .f32 :=
  shapeCast S8 (extractStridedSlice S8x1 ![0, 2] (st m ρ c) slices_S8x3_S8x1_0_2) shapeCasts_S8x1_S8

/-- A constant word at every sample. -/
def splat8 (w : BitVec 32) : FVec Ideal S8 .f32 := broadcastInDim S8 ![] bcast_S_S8 (constant (F := Ideal) S_ .f32 w)

/-- The mean as the host forms it, as a vector over samples. -/
def meanV : FVec Ideal S8 .f32 :=
  select (cmpf .ogt (col0 m ρ c) (splat8 0x00000000#32))
    (Host.divf (col1 m ρ c) (maximumf (col0 m ρ c) (splat8 0x3F800000#32))) (splat8 0x00000000#32)

/-- A column of a three-column array, sliced out and reshaped to a vector, read at a sample. -/
theorem col_apply (x : S8x3.Idx → EReal) (k : Fin 3) (hs : S8x3.Slices ![0, k.val] S8x1) (hc : S8x1.ShapeCasts S8)
    (i : S8.Idx) :
    shapeCast S8 (extractStridedSlice S8x1 ![0, k.val] x hs) hc i = x (ix2 (⟨(i 0).val, (i 0).isLt⟩ : Fin 8) k) := by
  rw [shapeCast_apply _ hc i (ix2 (⟨(i 0).val, (i 0).isLt⟩ : Fin 8) (0 : Fin 1)) (by
    rw [Shape.rowMajor_val_two, Shape.rowMajor_val_one]
    show (i 0).val * 1 + 0 = (i 0).val
    omega)]
  refine extractStridedSlice_apply _ x hs _ _ fun a => ?_
  match a with
  | ⟨0, _⟩ => show (i 0).val = 0 + (i 0).val; omega
  | ⟨1, _⟩ => show k.val = k.val + 0; omega

/-- A vector over samples reshaped to three axes, read at an index. -/
theorem up_apply (v : S8.Idx → EReal) (h : S8.ShapeCasts S8x1x1) (i : S8x1x1.Idx) :
    shapeCast S8x1x1 v h i = v (ix1 (⟨(i 0).val, (i 0).isLt⟩ : Fin 8)) := by
  have h1 : (i 1).val < 1 := (i 1).isLt
  have h2 : (i 2).val < 1 := (i 2).isLt
  refine shapeCast_apply v h i _ ?_
  rw [Shape.rowMajor_val_one, Shape.rowMajor_val_three]
  show (i 0).val = ((i 0).val * 1 + (i 1).val) * 1 + (i 2).val
  omega

/-- The three columns at a sample. -/
theorem col0_apply (j : Fin 8) : col0 m ρ c (ix1 j) = st m ρ c (ix2 j 0) :=
  col_apply (st m ρ c) 0 slices_S8x3_S8x1_0_0 shapeCasts_S8x1_S8 (ix1 j)
theorem col1_apply (j : Fin 8) : col1 m ρ c (ix1 j) = st m ρ c (ix2 j 1) :=
  col_apply (st m ρ c) 1 slices_S8x3_S8x1_0_1 shapeCasts_S8x1_S8 (ix1 j)
theorem col2_apply (j : Fin 8) : col2 m ρ c (ix1 j) = st m ρ c (ix2 j 2) :=
  col_apply (st m ρ c) 2 slices_S8x3_S8x1_0_2 shapeCasts_S8x1_S8 (ix1 j)

theorem W7_v31_term :
    W7 m ρ c (Proc.devRef .tc main_v31) = shapeCast S8x1x1 (meanV m ρ c) shapeCasts_S8_S8x1x1 := by
  dsimp only [W7, W6, W5, W4, W3, hostOps1_4, hostOps1_3, hostOps1_2, hostOps1_1, hostOps1]
  after_results_simp
  rfl

/-- The mean the normalising pass is given: Spec's `meanOf` of the count and the sum, sample by sample. -/
theorem W7_mean : W7 m ρ c (Proc.devRef .tc main_v31)
    = fun i => meanOf (st m ρ c (ix2 (⟨(i 0).val, (i 0).isLt⟩ : Fin 8) 0)) (st m ρ c (ix2 (⟨(i 0).val, (i 0).isLt⟩ : Fin 8) 1)) := by
  rw [W7_v31_term]
  funext i
  rw [up_apply]
  show meanOf (col0 m ρ c (ix1 (⟨(i 0).val, (i 0).isLt⟩ : Fin 8))) (col1 m ρ c (ix1 (⟨(i 0).val, (i 0).isLt⟩ : Fin 8))) = _
  rw [col0_apply, col1_apply]

/-- The standard deviation plus ε as the host forms it, as a vector over samples, and its reciprocal. -/
def denV : FVec Ideal S8 .f32 :=
  addf
    (select (cmpf .ogt (col0 m ρ c) (splat8 0x00000000#32))
      (Host.sqrt (maximumf
        (Host.divf (subf (col2 m ρ c) (mulf (mulf (col0 m ρ c) (meanV m ρ c)) (meanV m ρ c)))
          (maximumf (subf (col0 m ρ c) (splat8 0x3F800000#32)) (splat8 0x3F800000#32)))
        (splat8 0x00000000#32)))
      (splat8 0x3F800000#32))
    (splat8 0x3727C5AC#32)
def invV : FVec Ideal S8 .f32 := Host.divf (splat8 0x3F800000#32) (denV m ρ c)

theorem W7_v32_term :
    W7 m ρ c (Proc.devRef .tc main_v32) = shapeCast S8x1x1 (invV m ρ c) shapeCasts_S8_S8x1x1 := by
  dsimp only [W7, W6, W5, W4, W3, hostOps1_4, hostOps1_3, hostOps1_2, hostOps1_1, hostOps1]
  after_results_simp
  rfl

/-- The reciprocal the normalising pass is given: one over Spec's `denOf` of the three statistics, sample by sample. -/
theorem W7_inv : W7 m ρ c (Proc.devRef .tc main_v32)
    = fun i => Ideal.div ONE (denOf (st m ρ c (ix2 (⟨(i 0).val, (i 0).isLt⟩ : Fin 8) 0))
        (st m ρ c (ix2 (⟨(i 0).val, (i 0).isLt⟩ : Fin 8) 1)) (st m ρ c (ix2 (⟨(i 0).val, (i 0).isLt⟩ : Fin 8) 2))) := by
  rw [W7_v32_term]
  funext i
  rw [up_apply]
  show Ideal.div ONE (denOf (col0 m ρ c (ix1 (⟨(i 0).val, (i 0).isLt⟩ : Fin 8)))
    (col1 m ρ c (ix1 (⟨(i 0).val, (i 0).isLt⟩ : Fin 8))) (col2 m ρ c (ix1 (⟨(i 0).val, (i 0).isLt⟩ : Fin 8)))) = _
  rw [col0_apply, col1_apply, col2_apply]

end Cert.KernelIdeal.KValue

end
-- ==== Proof.KStats.lean ====
/-
  The three statistics the tiled side leaves are the specification's.

  The reduction pass leaves, per core k and sample b, three numbers: zero plus the sum over the core's 32 tiles of the
  tile's partial statistic.  Tile n = 32·k + t holds the 4096 consecutive voxels n·4096 + l of every channel, so its
  partial statistic is a sum over channels and over l of a function of the voxel (k·32 + t)·4096 + l.  Adding the two
  cores' numbers to zero, the 2 × 32 × 4096 walk covers each of the 262144 voxels once: the double sum over channels and
  voxels of the specification.  For the count the factor 32 multiplies each tile's number of kept voxels; the numbers
  are not negative, so the factor can be taken out of the whole sum.
-/
import proofs.«127413_j61598420959415_2_alg».proof.Proof.K0Final
import proofs.«127413_j61598420959415_2_alg».proof.Proof.Spec
import proofs.«127413_j61598420959415_2_alg».proof.Proof.Laws

noncomputable section

open Idealize.ShloMosaic Idealize.ShloMosaic.TcCoe Idealize.SL.Sem

namespace Cert.KernelIdeal.KValue

open Cert.KernelIdeal Cert.KernelIdeal.Gen Idealize.ShloMosaic.ValueIdx

variable (V : (c : Dev nD) → (b : Ref sig .tc) → Buf (Elt Ideal) ((c : Thread nD τ).loc b))

/-- Tile 32·k + t is one of the 64 tiles. -/
theorem tile_lt (k : Fin 2) (t : Fin 32) : 32 * k.val + t.val < cfg0.N := by
  have hN : cfg0.N = 64 := N_0
  have hk : k.val < 2 := k.isLt
  have ht : t.val < 32 := t.isLt
  omega

/-- Voxel l of tile 32·k + t is one of the 262144 voxels. -/
theorem tile_vox_lt (k : Fin 2) (t : Fin 32) (l : Fin 4096) : (32 * k.val + t.val) * 4096 + l.val < 262144 := by
  have hk : k.val < 2 := k.isLt
  have ht : t.val < 32 := t.isLt
  have hl : l.val < 4096 := l.isLt
  omega

/-- The same voxel, written as the tile walk of the sum laws writes it. -/
theorem tile_vox_eq (k : Fin 2) (t : Fin 32) (l : Fin 4096) :
    (⟨(32 * k.val + t.val) * 4096 + l.val, tile_vox_lt k t l⟩ : Fin 262144)
      = ⟨(k.val * 32 + t.val) * 4096 + l.val, by have := k.isLt; have := t.isLt; have := l.isLt; omega⟩ :=
  Fin.ext (by show (32 * k.val + t.val) * 4096 + l.val = (k.val * 32 + t.val) * 4096 + l.val; omega)

/-- The mask as the body computes it is the specification's. -/
theorem keepK_eq (v : EReal) : keepK v = Cert.MaskedNorm.keep v := by
  unfold keepK
  exact Cert.MaskedNorm.keep_signed v

/-- Core k's entry (b, j) of the per-core array: zero plus the sum of its 32 tiles' partial statistics. -/
theorem G0_apply (c : Dev nD) (k : Fin 2) (b : Fin 8) (j : Fin 3) :
    G0 V c (ix3 k b j)
      = Cert.MaskedNorm.Z + ∑ t : Fin 32, part (F := Ideal) (iblk0 V c 0 ⟨32 * k.val + t.val, tile_lt k t⟩) (ix2 b j) := by
  have hb : blkIdx (ix3 k b j) = ix3 (0 : Fin 1) b j := by
    funext a
    match a with
    | ⟨0, _⟩ => rfl
    | ⟨1, _⟩ => rfl
    | ⟨2, _⟩ => rfl
  unfold G0
  rw [hb, Finset.sum_range]
  show Cert.MaskedNorm.Z + ∑ t : Fin 32, tileM V c (32 * k.val + t.val) (ix3 (0 : Fin 1) b j) = _
  congr 1
  exact Finset.sum_congr rfl fun t _ => tileM_apply V c _ (tile_lt k t) b j

section
variable (c : Dev nD) (X : Cert.MaskedNorm.X3.Idx → EReal) (hX : (V c main_v0 : Cert.MaskedNorm.X3.Idx → EReal) = X)
include hX

/-- Tile 32·k + t of the flattened input at (b, ch, l) is the input at voxel (32·k + t)·4096 + l. -/
theorem iblk0_X (k : Fin 2) (t : Fin 32) (b : Fin 8) (ch : Fin 32) (l : Fin 4096) :
    iblk0 V c 0 ⟨32 * k.val + t.val, tile_lt k t⟩ (ix3 b ch l)
      = X (ix3 b ch (⟨(32 * k.val + t.val) * 4096 + l.val, tile_vox_lt k t l⟩ : Fin 262144)) :=
  (iblk0_apply V c _ (tile_lt k t) b ch l (tile_vox_lt k t l)).trans (congrFun hX _)

/-- The count. -/
theorem stat_cnt (b : Fin 8) :
    Cert.MaskedNorm.Z + ∑ k : Fin 2, G0 V c (ix3 k b (0 : Fin 3)) = Cert.MaskedNorm.cnt X b := by
  simp only [G0_apply, Cert.MaskedNorm.Z_eq, zero_add]
  unfold Cert.MaskedNorm.cnt
  rw [← Cert.MaskedNorm.cnt_tiles (fun s => Cert.MaskedNorm.kept X b s) (fun s => Cert.MaskedNorm.keep_nonneg _)
    Cert.MaskedNorm.C32]
  refine Finset.sum_congr rfl fun k _ => Finset.sum_congr rfl fun t _ => ?_
  have e : ∑ l : Fin 4096, keepK (iblk0 V c 0 ⟨32 * k.val + t.val, tile_lt k t⟩ (ix3 b (0 : Fin 32) l))
      = ∑ l : Fin 4096, Cert.MaskedNorm.kept X b
          ⟨(k.val * 32 + t.val) * 4096 + l.val, by have := k.isLt; have := t.isLt; have := l.isLt; omega⟩ := by
    refine Finset.sum_congr rfl fun l _ => ?_
    rw [iblk0_X V c X hX, keepK_eq, tile_vox_eq]
    rfl
  rw [part_cnt, e]

/-- The masked sum. -/
theorem stat_sm (b : Fin 8) :
    Cert.MaskedNorm.Z + ∑ k : Fin 2, G0 V c (ix3 k b (1 : Fin 3)) = Cert.MaskedNorm.sm X b := by
  simp only [G0_apply, Cert.MaskedNorm.Z_eq, zero_add]
  unfold Cert.MaskedNorm.sm
  rw [← Cert.MaskedNorm.sum_tiles_ch (fun ch s => X (ix3 b ch s) * Cert.MaskedNorm.kept X b s)]
  refine Finset.sum_congr rfl fun k _ => Finset.sum_congr rfl fun t _ => ?_
  rw [part_sum]
  refine Finset.sum_congr rfl fun ch _ => Finset.sum_congr rfl fun l _ => ?_
  rw [iblk0_X V c X hX, iblk0_X V c X hX, keepK_eq, tile_vox_eq]
  rfl

/-- The masked sum of squares. -/
theorem stat_sq (b : Fin 8) :
    Cert.MaskedNorm.Z + ∑ k : Fin 2, G0 V c (ix3 k b (2 : Fin 3)) = Cert.MaskedNorm.sq X b := by
  simp only [G0_apply, Cert.MaskedNorm.Z_eq, zero_add]
  unfold Cert.MaskedNorm.sq
  rw [← Cert.MaskedNorm.sum_tiles_ch
    (fun ch s => X (ix3 b ch s) * (X (ix3 b ch s) * Cert.MaskedNorm.kept X b s))]
  refine Finset.sum_congr rfl fun k _ => Finset.sum_congr rfl fun t _ => ?_
  rw [part_sq]
  refine Finset.sum_congr rfl fun ch _ => Finset.sum_congr rfl fun l _ => ?_
  rw [iblk0_X V c X hX, iblk0_X V c X hX, keepK_eq, tile_vox_eq]
  rfl

end

end Cert.KernelIdeal.KValue

end
-- ==== Proof.KValue.lean ====
import proofs.«127413_j61598420959415_2_alg».proof.Proof.KStages
import proofs.«127413_j61598420959415_2_alg».proof.Proof.KHost
import proofs.«127413_j61598420959415_2_alg».proof.Proof.KStats

noncomputable section

open Idealize.ShloMosaic Idealize.ShloMosaic.TcCoe Idealize.SL.Sem

namespace Cert.KernelIdeal.KValue

open Cert.KernelIdeal Cert.KernelIdeal.Gen Cert.MaskedNorm Idealize.ShloMosaic.ValueIdx

variable (m : (ℓ : Loc nD τ sig) → Buf (Elt Ideal) ℓ) (ρ : Dev nD → PrngReg) (c : Dev nD)

/-- The host's three statistics of sample `b` — the two cores' partial sums added — are those of the flattened input. -/
theorem st_cnt (b : Fin 8) : st m ρ c (ix2 b (0 : Fin 3)) = cnt (flatten (m ((c : Thread nD τ).loc main_arg0))) b := by
  unfold st
  rw [stats_apply, W2_v1]
  exact stat_cnt (V1 m ρ) c _ (V1_x m ρ c) b
theorem st_sm (b : Fin 8) : st m ρ c (ix2 b (1 : Fin 3)) = sm (flatten (m ((c : Thread nD τ).loc main_arg0))) b := by
  unfold st
  rw [stats_apply, W2_v1]
  exact stat_sm (V1 m ρ) c _ (V1_x m ρ c) b
theorem st_sq (b : Fin 8) : st m ρ c (ix2 b (2 : Fin 3)) = sq (flatten (m ((c : Thread nD τ).loc main_arg0))) b := by
  unfold st
  rw [stats_apply, W2_v1]
  exact stat_sq (V1 m ρ) c _ (V1_x m ρ c) b

/-- Entry by entry: scale · (x − mean) · (1 / deviation) + shift, over statistics `S` that are the flattened input's, is the
    masked normalisation — the flat position of a five-axis index reads that index's entry, and the deviation is not
    zero, so the product with its reciprocal is the quotient. -/
theorem value_at (x5 : X5.Idx → EReal) (g bt : S32.Idx → EReal) (S : S8x3.Idx → EReal)
    (hc : ∀ b : Fin 8, S (ix2 b (0 : Fin 3)) = cnt (flatten x5) b)
    (hs : ∀ b : Fin 8, S (ix2 b (1 : Fin 3)) = sm (flatten x5) b)
    (hq : ∀ b : Fin 8, S (ix2 b (2 : Fin 3)) = sq (flatten x5) b) (b : Fin 8) (ch : Fin 32) (d h w : Fin 64) :
    G1f g (flatten x5)
        (fun j => meanOf (S (ix2 (⟨(j 0).val, (j 0).isLt⟩ : Fin 8) (0 : Fin 3))) (S (ix2 (⟨(j 0).val, (j 0).isLt⟩ : Fin 8) (1 : Fin 3))))
        (fun j => Ideal.div ONE (denOf (S (ix2 (⟨(j 0).val, (j 0).isLt⟩ : Fin 8) (0 : Fin 3)))
          (S (ix2 (⟨(j 0).val, (j 0).isLt⟩ : Fin 8) (1 : Fin 3))) (S (ix2 (⟨(j 0).val, (j 0).isLt⟩ : Fin 8) (2 : Fin 3)))))
        bt (ix3 b ch (flat (ix5 b ch d h w)))
      = result x5 g bt (ix5 b ch d h w) := by
  unfold G1f result
  show g (ix1 ch) * (flatten x5 (ix3 b ch (flat (ix5 b ch d h w))) - meanOf (S (ix2 b (0 : Fin 3))) (S (ix2 b (1 : Fin 3))))
      * Ideal.div ONE (denOf (S (ix2 b (0 : Fin 3))) (S (ix2 b (1 : Fin 3))) (S (ix2 b (2 : Fin 3))))
      + bt (ix1 ch)
    = g (ix1 ch) * Ideal.div (x5 (ix5 b ch d h w) - meanOf (cnt (flatten x5) b) (sm (flatten x5) b))
        (denOf (cnt (flatten x5) b) (sm (flatten x5) b) (sq (flatten x5) b)) + bt (ix1 ch)
  rw [hc, hs, hq]
  have hx : flatten x5 (ix3 b ch (flat (ix5 b ch d h w))) = x5 (ix5 b ch d h w) := by
    show x5 (vox b ch (flat (ix5 b ch d h w))) = _
    exact congrArg x5 (vox_flat (ix5 b ch d h w))
  rw [hx]
  exact mul_recip_eq_div _ _ _ _ _ (denOf_ne_zero _ _ _)

/-- THE KERNEL'S RESULT: what the last reshape leaves in the result buffer is the masked normalisation of the arguments. -/
theorem kernel_value : W9 m ρ c (Proc.devRef .tc main_v34)
    = result (m ((c : Thread nD τ).loc main_arg0)) (m ((c : Thread nD τ).loc main_arg1)) (m ((c : Thread nD τ).loc main_arg2)) := by
  rw [W9_out, W8_v33]
  funext i
  obtain ⟨b, ch, d, h, w, rfl⟩ : ∃ (b : Fin 8) (ch : Fin 32) (d h w : Fin 64), i = ix5 b ch d h w :=
    ⟨i 0, i 1, i 2, i 3, i 4, eq_ix5 i⟩
  refine (unflatten_apply _ _ (ix5 b ch d h w)).trans ?_
  show G1f (W7 m ρ c (Proc.devRef .tc main_arg1)) (W7 m ρ c (Proc.devRef .tc main_v0)) (W7 m ρ c (Proc.devRef .tc main_v31))
      (W7 m ρ c (Proc.devRef .tc main_v32)) (W7 m ρ c (Proc.devRef .tc main_arg2)) (ix3 b ch (flat (ix5 b ch d h w))) = _
  rw [W7_g, W7_x, W7_mean, W7_inv, W7_b]
  exact value_at _ _ _ (st m ρ c) (st_cnt m ρ c) (st_sm m ρ c) (st_sq m ρ c) b ch d h w

end Cert.KernelIdeal.KValue

end
-- ==== Proof.RefValue.lean ====
/-
  The reference program read as the common specification.

  The reference computes, per sample, three sums over the four axes (channel, depth, height, width) of a
  five-axis array: the number of kept voxels (a one-channel array of 0/1 values), the masked sum and the masked sum
  of squares (32-channel arrays).  At the ideal values each such sum is the initial value plus the sum over all
  indices whose sample coordinate is the given one; re-indexing that set by (channel, flat voxel position)
  — the position is s = d·4096 + h·64 + w, so d = s / 4096, h = s / 64 % 64, w = s % 64 — turns it into the
  double sum of the specification.  Everything after the three sums is one scalar expression per sample, the same on
  both sides.
-/
import proofs.«127413_j61598420959415_2_alg».proof.Proof.Spec
import proofs.«127413_j61598420959415_2_alg».proof.Proof.RefReadP
import Idealize.ShloMosaic.PureOps.Reduce
import Idealize.ShloMosaic.Lib.IdealHost

noncomputable section

open Idealize.ShloMosaic Idealize.ShloMosaic.ValueIdx Idealize.ShloMosaic.TcCoe Idealize.SL.Sem
open Cert.ReferenceIdeal Cert.ReferenceIdeal.Gen Cert.ReferenceIdeal.Read

namespace Cert.MaskedNorm.Ref

/-! ## A sum over the axes 1..4 as a double sum over channels and flat positions -/

/-- The five-axis shape with `n` channels. -/
abbrev XN (n : Nat) : Shape := ⟨5, ![8, n, 64, 64, 64]⟩

/-- A voxel of the `n`-channel array from its flat position: s = d·4096 + h·64 + w. -/
def voxN {n : Nat} (b : Fin 8) (ch : Fin n) (s : Fin 262144) : (XN n).Idx :=
  ix5 b ch ⟨s.val / 4096, by omega⟩ ⟨s.val / 64 % 64, by omega⟩ ⟨s.val % 64, by omega⟩

/-- The flat position of an index of the `n`-channel array. -/
def flatN {n : Nat} (i : (XN n).Idx) : Fin 262144 :=
  ⟨(i 2).val * 4096 + (i 3).val * 64 + (i 4).val, by
    have h2 : (i 2).val < 64 := (i 2).isLt
    have h3 : (i 3).val < 64 := (i 3).isLt
    have h4 : (i 4).val < 64 := (i 4).isLt
    omega⟩

/-- An index is the voxel at its own channel and flat position. -/
theorem voxN_flatN {n : Nat} (i : (XN n).Idx) (b : Fin 8) (hb : b.val = (i 0).val) : voxN b (i 1) (flatN i) = i := by
  have h2 : (i 2).val < 64 := (i 2).isLt
  have h3 : (i 3).val < 64 := (i 3).isLt
  have h4 : (i 4).val < 64 := (i 4).isLt
  funext a
  match a with
  | ⟨0, _⟩ => exact Fin.ext hb
  | ⟨1, _⟩ => rfl
  | ⟨2, _⟩ => exact Fin.ext (by show ((i 2).val * 4096 + (i 3).val * 64 + (i 4).val) / 4096 = (i 2).val; omega)
  | ⟨3, _⟩ => exact Fin.ext (by show ((i 2).val * 4096 + (i 3).val * 64 + (i 4).val) / 64 % 64 = (i 3).val; omega)
  | ⟨4, _⟩ => exact Fin.ext (by show ((i 2).val * 4096 + (i 3).val * 64 + (i 4).val) % 64 = (i 4).val; omega)

/-- The flat position of a voxel is the position it was made from. -/
theorem flatN_voxN {n : Nat} (b : Fin 8) (ch : Fin n) (s : Fin 262144) : flatN (voxN b ch s) = s :=
  Fin.ext (by show s.val / 4096 * 4096 + s.val / 64 % 64 * 64 + s.val % 64 = s.val; omega)

/-- The host's sum over the axes 1..4 of an `n`-channel array, at sample `j 0`: the initial value plus the double
    sum over channels and flat voxel positions.  The indices that reduce to `j` are those whose sample coordinate is
    `j 0` (the one kept axis is axis 0), and (channel, flat position) ↦ voxel is a bijection onto them. -/
theorem hostReduceAdd_vox {n : Nat} (h : (XN n).ReducesTo [1, 2, 3, 4] (⟨1, ![8]⟩ : Shape)) (x : (XN n).Idx → EReal)
    (init : EReal) (j : (⟨1, ![8]⟩ : Shape).Idx) :
    Ideal.hostReduceAdd h x init j = init + ∑ ch : Fin n, ∑ s : Fin 262144, x (voxN (j 0) ch s) := by
  have hd : ∀ i : (XN n).Idx, h.drop i = j ↔ (i 0).val = (j 0).val := by
    intro i
    constructor
    · intro e; rw [← e]; exact (Shape.ReducesTo.drop_apply_val_of_eq h i 0 0 Nat.zero_lt_one rfl).symm
    · intro e; funext b
      match b with
      | ⟨0, _⟩ => exact Fin.ext ((Shape.ReducesTo.drop_apply_val_of_eq h i 0 0 Nat.zero_lt_one rfl).trans e)
  unfold Ideal.hostReduceAdd
  congr 1
  rw [← Finset.sum_product']
  refine Finset.sum_nbij' (fun i => (i 1, flatN i)) (fun p => voxN (j 0) p.1 p.2) ?_ ?_ ?_ ?_ ?_
  · intro i _; exact Finset.mem_product.2 ⟨Finset.mem_univ _, Finset.mem_univ _⟩
  · intro p _; exact Finset.mem_filter.2 ⟨Finset.mem_univ _, (hd _).2 rfl⟩
  · intro i hi; exact voxN_flatN i (j 0) ((hd i).1 (Finset.mem_filter.1 hi).2).symm
  · intro p _; exact Prod.ext rfl (flatN_voxN _ _ _)
  · intro i hi; exact congrArg x (voxN_flatN i (j 0) ((hd i).1 (Finset.mem_filter.1 hi).2).symm).symm

/-- The same at the sample `b`. -/
theorem hostReduceAdd_vox_ix1 {n : Nat} (h : (XN n).ReducesTo [1, 2, 3, 4] (⟨1, ![8]⟩ : Shape)) (x : (XN n).Idx → EReal)
    (init : EReal) (b : Fin 8) :
    Ideal.hostReduceAdd h x init (ix1 b) = init + ∑ ch : Fin n, ∑ s : Fin 262144, x (voxN b ch s) :=
  hostReduceAdd_vox h x init (ix1 b)

/-! ## The mask and the three statistics -/

/-- The reference's mask array at an index of the one-channel array: 1 where the channel-0 entry is not zero. -/
theorem v3_eq (x0 : X5.Idx → EReal) (k : S8x1x64x64x64.Idx) :
    val_main_v3 (F := Ideal) x0 k = keep (x0 (idx_main_v0 k)) := by
  rw [val_main_v3_apply, val_main_v2_apply, val_main_v0_apply, val_main_v1_apply, val_main_cst_apply]
  rfl

/-- The channel-0 index under a voxel of the one-channel array. -/
theorem idx_v0_voxN (b : Fin 8) (s : Fin 262144) :
    idx_main_v0 (voxN (n := 1) b 0 s) = vox b 0 s := by
  funext a
  match a with
  | ⟨0, _⟩ => rfl
  | ⟨1, _⟩ => rfl
  | ⟨2, _⟩ => rfl
  | ⟨3, _⟩ => rfl
  | ⟨4, _⟩ => rfl

/-- The channel-0 index under a voxel of the 32-channel array, through the mask's broadcast. -/
theorem idx_v0_v7_vox (b : Fin 8) (ch : Fin 32) (s : Fin 262144) :
    idx_main_v0 (idx_main_v7 (vox b ch s)) = vox b 0 s := by
  funext a
  match a with
  | ⟨0, _⟩ => rfl
  | ⟨1, _⟩ => rfl
  | ⟨2, _⟩ => rfl
  | ⟨3, _⟩ => rfl
  | ⟨4, _⟩ => rfl

/-- The number of kept voxels of a sample. -/
theorem v4_eq (x0 : X5.Idx → EReal) (b : Fin 8) :
    val_main_v4 (F := Ideal) x0 (ix1 b) = ∑ s : Fin 262144, kept (flatten x0) b s := by
  unfold val_main_v4
  rw [hostReduceAdd_apply, hostReduceAdd_vox_ix1 (n := 1), val_main_cst_0_apply, Ideal.ofBits_def, Ideal.ofBits_zero_f32,
    zero_add, Fin.sum_univ_one]
  refine Finset.sum_congr rfl fun s _ => ?_
  rw [v3_eq, idx_v0_voxN]
  rfl

/-- The count. -/
theorem v6_eq (x0 : X5.Idx → EReal) (b : Fin 8) : val_main_v6 (F := Ideal) x0 (ix1 b) = cnt (flatten x0) b := by
  rw [val_main_v6_apply, v4_eq, val_main_v5_apply, val_main_cst_1_apply]
  rfl

/-- The masked sum. -/
theorem v9_eq (x0 : X5.Idx → EReal) (b : Fin 8) : val_main_v9 (F := Ideal) x0 (ix1 b) = sm (flatten x0) b := by
  unfold val_main_v9
  rw [hostReduceAdd_apply, hostReduceAdd_vox_ix1 (n := 32), val_main_cst_2_apply, Ideal.ofBits_def, Ideal.ofBits_zero_f32,
    zero_add]
  refine Finset.sum_congr rfl fun ch _ => Finset.sum_congr rfl fun s _ => ?_
  show val_main_v8 (F := Ideal) x0 (vox b ch s) = _
  rw [val_main_v8_apply, val_main_v7_apply, v3_eq, idx_v0_v7_vox]
  rfl

/-- The masked sum of squares: the reference multiplies (x·x)·mask, the specification x·(x·mask). -/
theorem v13_eq (x0 : X5.Idx → EReal) (b : Fin 8) : val_main_v13 (F := Ideal) x0 (ix1 b) = sq (flatten x0) b := by
  unfold val_main_v13
  rw [hostReduceAdd_apply, hostReduceAdd_vox_ix1 (n := 32), val_main_cst_3_apply, Ideal.ofBits_def, Ideal.ofBits_zero_f32,
    zero_add]
  refine Finset.sum_congr rfl fun ch _ => Finset.sum_congr rfl fun s _ => ?_
  show val_main_v12 (F := Ideal) x0 (vox b ch s) = _
  rw [val_main_v12_apply, val_main_v10_apply, val_main_v11_apply, v3_eq]
  show x0 (vox b ch s) * x0 (vox b ch s) * keep (x0 (idx_main_v0 (idx_main_v7 (vox b ch s)))) = _
  rw [idx_v0_v7_vox, mul_assoc]
  rfl

/-! ## The per-sample scalars -/

/-- The mean of a sample. -/
theorem v19_eq (x0 : X5.Idx → EReal) (b : Fin 8) :
    val_main_v19 (F := Ideal) x0 (ix1 b) = meanOf (cnt (flatten x0) b) (sm (flatten x0) b) := by
  rw [val_main_v19_apply, val_main_v15_apply, val_main_v18_apply, val_main_v17_apply, v6_eq, v9_eq,
    val_main_v14_apply, val_main_cst_4_apply, val_main_v16_apply, val_main_cst_5_apply, val_main_call0_v1_apply,
    val_main_call0_v0_apply, val_main_cst_6_apply]
  rfl

/-- The standard deviation of a sample plus ε: the divisor of the normalised value. -/
theorem v31_eq (x0 : X5.Idx → EReal) (b : Fin 8) :
    val_main_v31 (F := Ideal) x0 (ix1 b) + EPS
      = denOf (cnt (flatten x0) b) (sm (flatten x0) b) (sq (flatten x0) b) := by
  rw [val_main_v31_apply, val_main_v15_apply, val_main_v30_apply, val_main_v29_apply, val_main_v27_apply,
    val_main_v22_apply, val_main_v21_apply, val_main_v20_apply, val_main_v26_apply, val_main_v24_apply, v19_eq, v6_eq,
    v13_eq, val_main_v14_apply, val_main_cst_4_apply, val_main_v23_apply, val_main_cst_7_apply, val_main_v25_apply,
    val_main_cst_8_apply, val_main_v28_apply, val_main_cst_9_apply, val_main_call1_v1_apply, val_main_call1_v0_apply,
    val_main_cst_10_apply]
  unfold denOf
  simp only [Ideal.cmpf_def, Ideal.ofBits_def, Ideal.hostUnary_sqrt_def, Ideal.maximumf_def, Ideal.hostDivf_def,
    Ideal.subf_def, Ideal.mulf_def]

/-! ## The result -/

/-- The reference's last stage is the specification's result. -/
theorem val_v45_eq (x0 : X5.Idx → EReal) (x1 x2 : (⟨1, ![32]⟩ : Shape).Idx → EReal) :
    val_main_v45 (F := Ideal) x0 x1 x2 = result x0 x1 x2 := by
  funext i
  obtain ⟨b, ch, d, h, w, rfl⟩ : ∃ (b : Fin 8) (ch : Fin 32) (d h w : Fin 64), i = ix5 b ch d h w :=
    ⟨_, _, _, _, _, eq_ix5 i⟩
  have e32 : idx_main_v32 (idx_main_v33 (ix5 b ch d h w)) = ix1 b := by
    funext a
    match a with
    | ⟨0, _⟩ => exact Fin.ext (by show (((b.val * 1 + 0) * 1 + 0) * 1 + 0) * 1 + 0 = b.val; omega)
  have e35 : idx_main_v35 (idx_main_v38 (ix5 b ch d h w)) = ix1 b := by
    funext a
    match a with
    | ⟨0, _⟩ => exact Fin.ext (by show (((b.val * 1 + 0) * 1 + 0) * 1 + 0) * 1 + 0 = b.val; omega)
  have e40 : idx_main_v40 (idx_main_v41 (ix5 b ch d h w)) = ix1 ch := by
    funext a
    match a with
    | ⟨0, _⟩ => exact Fin.ext (by show (((0 * 32 + ch.val) * 1 + 0) * 1 + 0) * 1 + 0 = ch.val; omega)
  have e43 : idx_main_v43 (idx_main_v44 (ix5 b ch d h w)) = ix1 ch := by
    funext a
    match a with
    | ⟨0, _⟩ => exact Fin.ext (by show (((0 * 32 + ch.val) * 1 + 0) * 1 + 0) * 1 + 0 = ch.val; omega)
  rw [val_main_v45_apply, val_main_v42_apply, val_main_v41_apply, val_main_v40_apply, val_main_v39_apply,
    val_main_v34_apply, val_main_v33_apply, val_main_v32_apply, val_main_v38_apply, val_main_v37_apply,
    val_main_v35_apply, val_main_v36_apply, val_main_cst_11_apply, val_main_v44_apply, val_main_v43_apply,
    e32, e35, e40, e43, v19_eq]
  show x1 (ix1 ch) * Ideal.div (x0 (ix5 b ch d h w) - meanOf (cnt (flatten x0) b) (sm (flatten x0) b))
      (val_main_v31 (F := Ideal) x0 (ix1 b) + EPS) + x2 (ix1 ch) = _
  rw [v31_eq]
  rfl

end Cert.MaskedNorm.Ref

namespace Cert.MaskedNorm

/-- The reference run's result is the specification's result of the three argument arrays. -/
theorem ref_value (m : (ℓ : Loc nD τ sig) → Buf (Elt Ideal) ℓ) (c : Dev nD) :
    Cert.ReferenceIdeal.Value.res_main_v45 (F := Ideal) m c
      = result (m ((c.tc : Thread nD τ).loc main_arg0)) (m ((c.tc : Thread nD τ).loc main_arg1))
          (m ((c.tc : Thread nD τ).loc main_arg2)) := by
  rw [val_main_v45_eq]
  exact Ref.val_v45_eq _ _ _

end Cert.MaskedNorm

end
-- ==== Proof.lean ====
/-
  Masked per-sample normalisation: the kernel against its reference, on the extended reals.

  Both programs take x : f32[8,32,64,64,64] and per-channel γ, β : f32[32].  A voxel of a sample is kept when the sample's
  channel-0 entry there is not zero.  Per sample, cnt = 32 · (number of kept voxels), sm = Σ x·keep and sq = Σ x·(x·keep)
  over all channels and voxels; mean = sm / max cnt 1 where cnt > 0 (else 0); the deviation is
  sqrt (max ((sq − cnt·mean·mean) / max (cnt − 1) 1) 0) where cnt > 0 (else 1), plus ε; the result is
  γ · ((x − mean) / deviation) + β  (Proof/Spec.lean states all of it once, as `Cert.MaskedNorm.result`).

  The reference computes exactly that, with each statistic one sum over a sample's four trailing axes
  (Proof/RefValue.lean: a sum over the indices that drop to a sample is the nested sum over channels and flat voxel
  positions).  The kernel works on the flattened array in two passes.  The first walks the 64 tiles of 4096 voxels, 32
  per core, adding each tile's three partial statistics into the core's [8,3] block, set to zero at the core's first
  tile (Proof/K0Pieces, K0Acc: the block after a point is the fold over the core's run of points, on the extended reals
  a sum; K0Part: a tile's partial statistics read entry by entry; K0Final: the per-core array after the pass); the host
  adds the two cores' blocks and forms the mean and the reciprocal of the deviation per sample (Proof/KHost.lean).  The
  count is a sum of products (Σ_tiles (Σ keep)·32), which is the product of the sum because every summand is
  nonnegative; the other two statistics are the same terms summed in another grouping (Proof/Laws.lean, KStats.lean).
  The second pass multiplies by the reciprocal where the reference divides: division by a nonzero extended real is the
  product with its inverse, and the deviation plus ε is positive (Proof/K1Pay, K1Final, KValue).  No step needs the
  inputs to be finite.
-/
import proofs.«127413_j61598420959415_2_alg».proof.Defs
import proofs.«127413_j61598420959415_2_alg».proof.Proof.Gen.Kernel
import proofs.«127413_j61598420959415_2_alg».proof.Proof.Gen.Kernel.Frame
import proofs.«127413_j61598420959415_2_alg».proof.Proof.Gen.KernelIdeal
import proofs.«127413_j61598420959415_2_alg».proof.Proof.Gen.KernelIdeal.Frame
import proofs.«127413_j61598420959415_2_alg».proof.Proof.Gen.ReferenceIdeal
import proofs.«127413_j61598420959415_2_alg».proof.Proof.Gen.Pre_finite_inputs
import proofs.«127413_j61598420959415_2_alg».proof.Proof.KRun
import proofs.«127413_j61598420959415_2_alg».proof.Proof.KValue
import proofs.«127413_j61598420959415_2_alg».proof.Proof.RefValue
import Idealize.ShloMosaic.Adequacy
import Idealize.ShloMosaic.Init

noncomputable section

namespace Cert.Proof

open Idealize.ShloMosaic Idealize.SL.Sem

/-- The three programs run and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with `Cert.MaskedNorm.result` of the (agreeing) arguments. -/
theorem algebraic : Cert.algebraic_KernelIdeal_ReferenceIdeal := by
  intro m ρ m' ρ' _ hagree
  refine ⟨fun c => Cert.MaskedNorm.result (m ((c.tc : Thread _ _).loc Cert.KernelIdeal.main_arg0))
    (m ((c.tc : Thread _ _).loc Cert.KernelIdeal.main_arg1)) (m ((c.tc : Thread _ _).loc Cert.KernelIdeal.main_arg2)), ?_, ?_⟩
  · exact (θ_run Cert.KernelIdeal.defs _ _).mono
      (fun r h c => ⟨(h c).1.trans (Cert.KernelIdeal.KValue.kernel_value m ρ c), (h c).2⟩)
      (Cert.KernelIdeal.Gen.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.MaskedNorm.ref_value m' c, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
